-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S4x1024 .f32) (main_arg8 : FVec F S4x1024 .f32) (main_arg9 : FVec F S4x1024 .f32) (main_arg10 : FVec F S1024 .f32) (main_arg11 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_v44 : FVec F S4x1024 .f32 := Host.absf main_arg9
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S4096x1024 .f32) (main_arg5 : FVec F S4096 .f32) (main_arg6 : FVec F S4x1024 .f32) (main_arg7 : FVec F S4x1024 .f32) (main_arg8 : FVec F S4x1024 .f32) (main_arg9 : FVec F S4x1024 .f32) (main_arg10 : FVec F S1024 .f32) (main_arg11 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x1024 .f32) (main_arg1 : FVec F S256x1024 .f32) (main_arg2 : FVec F S256x1024 .f32) (main_arg3 : FVec F S4096x1024 .f32) (main_arg4 : FVec F S4096x1024 .f32) (main_arg5 : FVec F S4096 .f32) (main_arg6 : FVec F S4x1024 .f32) (main_arg7 : FVec F S4x1024 .f32) (main_arg8 : FVec F S4x1024 .f32) (main_arg9 : FVec F S4x1024 .f32) (main_arg10 : FVec F S1024 .f32) (main_arg11 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_v13 main_v16
-- ==== Kernel.lean ====
abbrev S256x1024 : Shape := ⟨2, ![256, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S1x1024 : Shape := ⟨2, ![1, 1024]⟩
abbrev S4x256x1024 : Shape := ⟨3, ![4, 256, 1024]⟩
abbrev S1024x1024 : Shape := ⟨2, ![1024, 1024]⟩
abbrev S1x256x1024 : Shape := ⟨3, ![1, 256, 1024]⟩
abbrev S256 : Shape := ⟨1, ![256]⟩
abbrev S256x1 : Shape := ⟨2, ![256, 1]⟩
abbrev S4x128x1024 : Shape := ⟨3, ![4, 128, 1024]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩

abbrev nBuf : Space → Nat
  | .hbm => 18
  | .vmem => 23
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S1024, .f32⟩
  | .hbm, ⟨11, _⟩ => ⟨S1024, .f32⟩
  | .hbm, ⟨12, _⟩ => ⟨S4x1024, .f32⟩
  | .hbm, ⟨13, _⟩ => ⟨S1x1024, .f32⟩
  | .hbm, ⟨14, _⟩ => ⟨S1x1024, .f32⟩
  | .hbm, ⟨15, _⟩ => ⟨S4x256x1024, .f32⟩
  | .hbm, ⟨16, _⟩ => ⟨S256x1024, .f32⟩
  | .hbm, ⟨17, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S1x256x1024, .f32⟩
  | .local _ .vmem, ⟨12, _⟩ => ⟨S1x256x1024, .f32⟩
  | .local _ .vmem, ⟨13, _⟩ => ⟨S4x128x1024, .f32⟩
  | .local _ .vmem, ⟨14, _⟩ => ⟨S4x128x1024, .f32⟩
  | .local _ .vmem, ⟨15, _⟩ => ⟨S128x1024, .f32⟩
  | .local _ .vmem, ⟨16, _⟩ => ⟨S128x1024, .f32⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v10 : Index := Scalar.indexCast arg0
  let c0_8 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4096_S4x1024 : S4096.ShapeCasts S4x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  h_S1x1024 : 0 < S1x1024.numel
  shapeCasts_S1x1024_S1024 : S1x1024.ShapeCasts S1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x128x1024_S1x128x1024_0_0_0 : ∀ a, (![0, 0, 0] : Fin 3 → Nat) a + S1x128x1024.size a ≤ S4x128x1024.size a
  h_S1x128x1024 : 0 < S1x128x1024.numel
  shapeCasts_S1x128x1024_S128x1024 : S1x128x1024.ShapeCasts S128x1024
  inb_S4x128x1024_S1x128x1024_1_0_0 : ∀ a, (![1, 0, 0] : Fin 3 → Nat) a + S1x128x1024.size a ≤ S4x128x1024.size a
  inb_S4x128x1024_S1x128x1024_2_0_0 : ∀ a, (![2, 0, 0] : Fin 3 → Nat) a + S1x128x1024.size a ≤ S4x128x1024.size a
  inb_S4x128x1024_S1x128x1024_3_0_0 : ∀ a, (![3, 0, 0] : Fin 3 → Nat) a + S1x128x1024.size a ≤ S4x128x1024.size a
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  shapeCasts_S1x1024_S1x1024 : S1x1024.ShapeCasts S1x1024
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  dot_S256x1024_S1024x1024_S256x1024_1_1_0_0_n_n_wf : DotDims.WF S256x1024 S1024x1024 S256x1024 [1] [1] [0] [0] [] []
  hrank0 : 0 < grid0.rank
  k0_off1_inb : ∀ i : grid0.Coords, ∀ a, (k0_off1 i) a + S1x1024.size a ≤ S4x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S4x256x1024.size a
  hwx0_9 : ∀ i : grid0.Coords, EltTy.bits .f32 = 32 ∨ (Rect.block (s := S4x256x1024) S1x256x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x1024.size a ≤ S4x256x1024.size a
  hwx1_0 : ∀ i : grid1.Coords, EltTy.bits .f32 = 32 ∨ (Rect.block (s := S4x256x1024) S4x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S256x1024.size a
  hwx1_1 : ∀ i : grid1.Coords, EltTy.bits .f32 = 32 ∨ (Rect.block (s := S256x1024) S128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S256x1024.size a
  hwx1_4 : ∀ i : grid1.Coords, EltTy.bits .f32 = 32 ∨ (Rect.block (s := S256x1024) S128x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S256x1024.size a
  hwx1_5 : ∀ i : grid1.Coords, EltTy.bits .f32 = 32 ∨ (Rect.block (s := S256x1024) S128x1024.size (cc1_transform_5 i) (hinb1_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3) S4x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S128x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S128x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x1024 : Shape := ⟨2, ![256, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S256x4096 : Shape := ⟨2, ![256, 4096]⟩
abbrev S256x4x1024 : Shape := ⟨3, ![256, 4, 1024]⟩
abbrev S_ : Shape := ⟨0, ![]⟩
abbrev S256x4 : Shape := ⟨2, ![256, 4]⟩
abbrev S256x4x1 : Shape := ⟨3, ![256, 4, 1]⟩
abbrev S1x4x1024 : Shape := ⟨3, ![1, 4, 1024]⟩
abbrev S256x1x1024 : Shape := ⟨3, ![256, 1, 1024]⟩
abbrev S256 : Shape := ⟨1, ![256]⟩
abbrev S256x1 : Shape := ⟨2, ![256, 1]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S256x1024, .f32⟩
  | 1 => ⟨S256x1024, .f32⟩
  | 2 => ⟨S256x1024, .f32⟩
  | 3 => ⟨S4096x1024, .f32⟩
  | 4 => ⟨S4096x1024, .f32⟩
  | 5 => ⟨S4096, .f32⟩
  | 6 => ⟨S4x1024, .f32⟩
  | 7 => ⟨S4x1024, .f32⟩
  | 8 => ⟨S4x1024, .f32⟩
  | 9 => ⟨S4x1024, .f32⟩
  | 10 => ⟨S1024, .f32⟩
  | 11 => ⟨S1024, .f32⟩
  | 12 => ⟨S256x4096, .f32⟩
  | 13 => ⟨S256x4x1024, .f32⟩
  | 14 => ⟨S256x4096, .f32⟩
  | 15 => ⟨S256x4x1024, .f32⟩
  | 16 => ⟨S_, .f32⟩
  | 17 => ⟨S256x4, .f32⟩
  | 18 => ⟨S256x4x1, .f32⟩
  | 19 => ⟨S_, .f32⟩
  | 20 => ⟨S256x4x1, .f32⟩
  | 21 => ⟨S256x4x1, .f32⟩
  | 22 => ⟨S256x4x1024, .f32⟩
  | 23 => ⟨S256x4x1024, .f32⟩
  | 24 => ⟨S256x4x1024, .f32⟩
  | 25 => ⟨S_, .f32⟩
  | 26 => ⟨S256x4, .f32⟩
  | 27 => ⟨S256x4x1, .f32⟩
  | 28 => ⟨S_, .f32⟩
  | 29 => ⟨S256x4x1, .f32⟩
  | 30 => ⟨S256x4x1, .f32⟩
  | 31 => ⟨S256x4x1024, .f32⟩
  | 32 => ⟨S256x4x1024, .f32⟩
  | 33 => ⟨S_, .f32⟩
  | 34 => ⟨S256x4x1, .f32⟩
  | 35 => ⟨S256x4x1, .f32⟩
  | 36 => ⟨S256x4x1, .f32⟩
  | 37 => ⟨S256x4x1024, .f32⟩
  | 38 => ⟨S256x4x1024, .f32⟩
  | 39 => ⟨S1x4x1024, .f32⟩
  | 40 => ⟨S256x4x1024, .f32⟩
  | 41 => ⟨S256x4x1024, .f32⟩
  | 42 => ⟨S1x4x1024, .f32⟩
  | 43 => ⟨S256x4x1024, .f32⟩
  | 44 => ⟨S256x4x1024, .f32⟩
  | 45 => ⟨S_, .f32⟩
  | 46 => ⟨S256x4, .f32⟩
  | 47 => ⟨S256x4x1, .f32⟩
  | 48 => ⟨S_, .f32⟩
  | 49 => ⟨S256x4x1, .f32⟩
  | 50 => ⟨S256x4x1, .f32⟩
  | 51 => ⟨S256x4x1024, .f32⟩
  | 52 => ⟨S256x4x1024, .f32⟩
  | 53 => ⟨S256x4x1024, .f32⟩
  | 54 => ⟨S_, .f32⟩
  | 55 => ⟨S256x4, .f32⟩
  | 56 => ⟨S256x4x1, .f32⟩
  | 57 => ⟨S_, .f32⟩
  | 58 => ⟨S256x4x1, .f32⟩
  | 59 => ⟨S256x4x1, .f32⟩
  | 60 => ⟨S256x4x1024, .f32⟩
  | 61 => ⟨S256x4x1024, .f32⟩
  | 62 => ⟨S_, .f32⟩
  | 63 => ⟨S256x4x1, .f32⟩
  | 64 => ⟨S256x4x1, .f32⟩
  | 65 => ⟨S256x4x1, .f32⟩
  | 66 => ⟨S256x4x1024, .f32⟩
  | 67 => ⟨S256x4x1024, .f32⟩
  | 68 => ⟨S1x4x1024, .f32⟩
  | 69 => ⟨S256x4x1024, .f32⟩
  | 70 => ⟨S256x4x1024, .f32⟩
  | 71 => ⟨S1x4x1024, .f32⟩
  | 72 => ⟨S256x4x1024, .f32⟩
  | 73 => ⟨S256x4x1024, .f32⟩
  | 74 => ⟨S256x4x1024, .f32⟩
  | 75 => ⟨S4x1024, .f32⟩
  | 76 => ⟨S1x4x1024, .f32⟩
  | 77 => ⟨S256x4x1024, .f32⟩
  | 78 => ⟨S256x4x1024, .f32⟩
  | 79 => ⟨S256x1x1024, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S256x1x1024, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S256x1x1024, .f32⟩
  | 100 => ⟨S256x1024, .f32⟩
  | 101 => ⟨S256x1024, .f32⟩
  | 102 => ⟨S256x1x1024, .f32⟩
  | 103 => ⟨S256x1024, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S_, .f32⟩
  | 110 => ⟨S256x1024, .f32⟩
  | 111 => ⟨S256x1024, .f32⟩
  | 112 => ⟨S256x1024, .f32⟩
  | 113 => ⟨S256x1024, .f32⟩
  | 114 => ⟨S256x1024, .f32⟩
  | 115 => ⟨S_, .f32⟩
  | 116 => ⟨S256, .f32⟩
  | 117 => ⟨S256x1, .f32⟩
  | 118 => ⟨S_, .f32⟩
  | 119 => ⟨S256x1, .f32⟩
  | 120 => ⟨S256x1, .f32⟩
  | 121 => ⟨S256x1024, .f32⟩
  | 122 => ⟨S256x1024, .f32⟩
  | 123 => ⟨S256x1024, .f32⟩
  | 124 => ⟨S_, .f32⟩
  | 125 => ⟨S256, .f32⟩
  | 126 => ⟨S256x1, .f32⟩
  | 127 => ⟨S_, .f32⟩
  | _ => ⟨S256x1024, .f32⟩

abbrev hbmTy0_1 (i : Nat) : BufTy := match i % 128 with
  | 0 => ⟨S256x1, .f32⟩
  | 1 => ⟨S256x1, .f32⟩
  | 2 => ⟨S256x1024, .f32⟩
  | 3 => ⟨S256x1024, .f32⟩
  | 4 => ⟨S_, .f32⟩
  | 5 => ⟨S256x1, .f32⟩
  | 6 => ⟨S256x1, .f32⟩
  | 7 => ⟨S256x1, .f32⟩
  | 8 => ⟨S256x1024, .f32⟩
  | 9 => ⟨S256x1024, .f32⟩
  | 10 => ⟨S1x1024, .f32⟩
  | 11 => ⟨S256x1024, .f32⟩
  | 12 => ⟨S256x1024, .f32⟩
  | 13 => ⟨S1x1024, .f32⟩
  | 14 => ⟨S256x1024, .f32⟩
  | 15 => ⟨S256x1024, .f32⟩
  | 16 => ⟨S256x1024, .f32⟩
  | 17 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]

class Facts₀ : Prop where
  shapeCasts_S256x4096_S256x4x1024 : S256x4096.ShapeCasts S256x4x1024
  reducesTo_S256x4x1024_S256x4_d2 : S256x4x1024.ReducesTo [2] S256x4
  h_S_ : 0 < S_.numel
  bcast_S256x4_S256x4x1_0_1 : S256x4.BroadcastsInDim S256x4x1 (![0, 1] : Fin 2 → Fin S256x4x1.rank)
  bcast_S_S256x4x1 : S_.BroadcastsInDim S256x4x1 (![] : Fin 0 → Fin S256x4x1.rank)
  bcast_S256x4x1_S256x4x1024_0_1_2 : S256x4x1.BroadcastsInDim S256x4x1024 (![0, 1, 2] : Fin 3 → Fin S256x4x1024.rank)
  bcast_S4x1024_S1x4x1024_1_2 : S4x1024.BroadcastsInDim S1x4x1024 (![1, 2] : Fin 2 → Fin S1x4x1024.rank)
  bcast_S1x4x1024_S256x4x1024_0_1_2 : S1x4x1024.BroadcastsInDim S256x4x1024 (![0, 1, 2] : Fin 3 → Fin S256x4x1024.rank)
  shapeCasts_S4096_S4x1024 : S4096.ShapeCasts S4x1024
  slices_S256x4x1024_S256x1x1024_0_0_0 : S256x4x1024.Slices ![0, 0, 0] S256x1x1024
  shapeCasts_S256x1x1024_S256x1024 : S256x1x1024.ShapeCasts S256x1024
  bcast_S_S256x1024 : S_.BroadcastsInDim S256x1024 (![] : Fin 0 → Fin S256x1024.rank)
  slices_S256x4x1024_S256x1x1024_0_1_0 : S256x4x1024.Slices ![0, 1, 0] S256x1x1024
  slices_S256x4x1024_S256x1x1024_0_2_0 : S256x4x1024.Slices ![0, 2, 0] S256x1x1024
  slices_S256x4x1024_S256x1x1024_0_3_0 : S256x4x1024.Slices ![0, 3, 0] S256x1x1024
  reducesTo_S256x1024_S256_d1 : S256x1024.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  dot_S256x1024_S4096x1024_S256x4096_1_1_0_0_n_n_wf : DotDims.WF S256x1024 S4096x1024 S256x4096 [1] [1] [0] [0] [] []

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

class Facts : Prop extends Facts₀ where

variable [Facts]
-- ==== Proof.KernelRun.lean ====
/-
  The idealized kernel's run with its two result arrays named.

  The program is three segments: three reshapes on the host, the four-point region that writes the gate
  pre-activations, and the two-point region that writes the new hidden and cell states. Every weakly fair execution
  ends with each unscoped buffer at the contents the segments' fold leaves (`W3`); read at the two result arrays and
  at the twelve arguments this is the run stated here. The result arrays are what the second region's write-backs
  leave, block by block.
-/
import proofs.«107191_j38560216383688_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result arrays at the last boundary's
    contents and the arguments as launched. -/
theorem run_W3 : θ_run defs (onTc (τ := τ) (main (F := F))) ⟨m, fun _ => 0, ρ⟩ (fun r => ∀ c : Dev nD,
      r.2.mem ((c.tc : Thread nD τ).loc main_v4_0) = W3 m ρ c (Proc.devRef .tc main_v4_0)
      ∧ r.2.mem ((c.tc : Thread nD τ).loc main_v4_1) = W3 m ρ c (Proc.devRef .tc main_v4_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4_0 (by decide)),
       h c _ (mem_uc main_v4_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

/-- The new hidden state is the second region's output window 4, the new cell state its window 5. -/
theorem W3_hy (c : Dev nD) : W3 m ρ c (Proc.devRef .tc main_v4_0) = (dat1 (V2 m ρ) c).arrAt 4 cfg1.N := W3_arr m ρ c 4
theorem W3_cy (c : Dev nD) : W3 m ρ c (Proc.devRef .tc main_v4_1) = (dat1 (V2 m ρ) c).arrAt 5 cfg1.N := W3_arr m ρ c 5

end Cert.KernelIdeal.Run

end
-- ==== Proof.LstmAlgebra.lean ====
/-
  Extended-real facts behind a layer-normalised LSTM cell.

  A row of 1024 entries is normalised by its mean and its variance plus a small positive constant. One program
  multiplies the centred entry by the reciprocal square root of that quantity, the other divides it by the square
  root. The quantity is a mean of squares plus a positive number, so it is positive (possibly +∞) on every row of
  extended reals, and for a positive `v` the two spellings agree: `a · rsqrt v = a / sqrt v`.
  A logistic function is `1 / (1 + exp (-x))` by definition.
-/
import Idealize.ShloMosaic.PureOps.Ideal
import Idealize.ShloMosaic.PureOps.Ideal.Laws
import Idealize.ShloMosaic.Lib.IdealHost

noncomputable section

open scoped BigOperators

namespace Cert.Lstm

open Idealize.ShloMosaic

/-- The divisor `1024.0` denotes the real 1024. -/
theorem ofBits_1024 : Ideal.ofBits .f32 0x44800000#32 = ((1024 : ℝ) : EReal) := by
  simp [Ideal.ofBits, Ideal.ieee, -EReal.coe_mul]; norm_num

/-- The stabiliser `1e-10` (as a binary32 number) denotes a positive real. -/
theorem ofBits_eps_pos : (0 : EReal) < Ideal.ofBits .f32 0x2EDBE6FF#32 := by
  simp [Ideal.ofBits, Ideal.ieee, -EReal.coe_mul]

/-- A square is not negative, at the infinities too. -/
theorem mul_self_nonneg (a : EReal) : 0 ≤ a * a := by
  induction a using EReal.rec with
  | bot => simp
  | coe r => rw [← EReal.coe_mul]; exact EReal.coe_nonneg.mpr (_root_.mul_self_nonneg r)
  | top => simp

/-- A quantity that is not negative, divided by 1024, is not negative. -/
theorem div_1024_nonneg {s : EReal} (hs : 0 ≤ s) : 0 ≤ Ideal.div s (Ideal.ofBits .f32 0x44800000#32) := by
  rw [ofBits_1024, Ideal.div_coe (by norm_num)]
  exact mul_nonneg hs (EReal.coe_nonneg.mpr (by norm_num))

/-- A mean of squares plus the stabiliser is positive. -/
theorem meansq_eps_pos {ι : Type} [Fintype ι] (d : ι → EReal) :
    0 < Ideal.div (∑ k, d k * d k) (Ideal.ofBits .f32 0x44800000#32) + Ideal.ofBits .f32 0x2EDBE6FF#32 :=
  lt_of_lt_of_le ofBits_eps_pos
    (le_add_of_nonneg_left (div_1024_nonneg (Finset.sum_nonneg fun k _ => mul_self_nonneg (d k))))

/-- For a positive `v` (the infinity included) the product with the reciprocal square root is the quotient by the
    square root. -/
theorem mul_rsqrt_eq_div_sqrt (a : EReal) {v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top, Ideal.div, if_neg (by simp), EReal.inv_top, mul_zero]
  | coe r =>
    have hr : 0 < r := EReal.coe_pos.mp hv
    have hs : 0 < Real.sqrt r := Real.sqrt_pos.mpr hr
    rw [Ideal.rsqrt_coe, Ideal.sqrt_coe, if_neg (not_lt.mpr hr.le), if_neg hr.ne', if_neg (not_lt.mpr hr.le),
      Ideal.div_coe hs.ne', one_div]

/-! ## A row's normalisation, in the two spellings -/

/-- The mean of a row: its sum divided by the pattern `1024.0`. -/
def mean {b : ℕ} (x : Fin b → EReal) : EReal := Ideal.div (∑ k, x k) (Ideal.ofBits .f32 0x44800000#32)

/-- The mean of the squared deviations plus the stabiliser. -/
def spread {b : ℕ} (x : Fin b → EReal) : EReal :=
  Ideal.div (∑ k, (x k - mean x) * (x k - mean x)) (Ideal.ofBits .f32 0x44800000#32) + Ideal.ofBits .f32 0x2EDBE6FF#32

/-- The centred entry times the reciprocal square root of the spread. -/
def normMul {b : ℕ} (x : Fin b → EReal) (c : Fin b) : EReal := (x c - mean x) * Ideal.rsqrt (spread x)

/-- The centred entry divided by the square root of the spread. -/
def normDiv {b : ℕ} (x : Fin b → EReal) (c : Fin b) : EReal := Ideal.div (x c - mean x) (Ideal.sqrt (spread x))

theorem spread_pos {b : ℕ} (x : Fin b → EReal) : 0 < spread x := meansq_eps_pos _

/-- The two spellings are one function on every row of extended reals. -/
theorem normDiv_eq_normMul {b : ℕ} (x : Fin b → EReal) (c : Fin b) : normDiv x c = normMul x c :=
  (mul_rsqrt_eq_div_sqrt _ (spread_pos x)).symm

/-- The logistic function spelt with the host's operations and the constant `1.0`. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end Cert.Lstm

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibNormRows.lean ====
/-
  A row normalisation in the vector unit's spelling, read at an index on the extended reals.

  For `x : [a, b]` the vector unit computes, row by row: the lane sum divided by `1024.0` (the mean, kept as a column
  `[a, 1]`), the deviations `x - mean` (the column spread over the lanes), the lane sum of their squares divided by
  `1024.0`, plus `1e-10`, the reciprocal square root of that, and the product of the deviations with it. At `(r, c)`
  this is `normMul` of row `r` at `c` (LstmAlgebra: mean, spread and the product, as extended reals). The proof
  arguments of the printed operations are variables, so the statement matches a printed body by unification.
-/
import proofs.«107191_j38560216383688_2_alg».proof.Proof.LstmAlgebra
import proofs.«107191_j38560216383688_2_alg».proof.Proof.LibColumns

noncomputable section

open scoped BigOperators

namespace Cert.Lstm

open Idealize.ShloMosaic Idealize.ShloMosaic.ValueIdx Cert.Proof.Columns

section
variable {a b : ℕ} (hR : (⟨2, ![a, b]⟩ : Shape).Reduces [(1 : Fin 2)] ⟨1, ![a]⟩) (hφ : FKind.Formats .f32)
  (hacc : (0x00000000#32 : BitVec 32) = FKind.add.neutral .f32 hφ)
  (hC : (⟨1, ![a]⟩ : Shape).ShapeCasts ⟨2, ![a, 1]⟩) (hB : (⟨2, ![a, 1]⟩ : Shape).Broadcasts ⟨2, ![a, b]⟩)

/-- The column of row means. -/
def meanCol (x : FVec Ideal ⟨2, ![a, b]⟩ .f32) : FVec Ideal ⟨2, ![a, 1]⟩ .f32 :=
  divf (shapeCast ⟨2, ![a, 1]⟩ (multiReduction .add [(1 : Fin 2)] ⟨1, ![a]⟩ x 0x00000000#32 hR hφ hacc) hC)
    (broadcast ⟨2, ![a, 1]⟩ (Scalar.ofBits .f32 0x44800000#32))

/-- The deviations from the row means. -/
def devRows (x : FVec Ideal ⟨2, ![a, b]⟩ .f32) : FVec Ideal ⟨2, ![a, b]⟩ .f32 :=
  subf x (broadcastTo ⟨2, ![a, b]⟩ (meanCol hR hφ hacc hC x) hB)

/-- The column of reciprocal square roots of the rows' spreads. -/
def rsqrtCol (x : FVec Ideal ⟨2, ![a, b]⟩ .f32) : FVec Ideal ⟨2, ![a, 1]⟩ .f32 :=
  rsqrt (addf (divf (shapeCast ⟨2, ![a, 1]⟩ (multiReduction .add [(1 : Fin 2)] ⟨1, ![a]⟩
      (mulf (devRows hR hφ hacc hC hB x) (devRows hR hφ hacc hC hB x)) 0x00000000#32 hR hφ hacc) hC)
    (broadcast ⟨2, ![a, 1]⟩ (Scalar.ofBits .f32 0x44800000#32)))
    (broadcast ⟨2, ![a, 1]⟩ (Scalar.ofBits .f32 0x2EDBE6FF#32)))

/-- The normalised rows. -/
def normRows (x : FVec Ideal ⟨2, ![a, b]⟩ .f32) : FVec Ideal ⟨2, ![a, b]⟩ .f32 :=
  mulf (devRows hR hφ hacc hC hB x) (broadcastTo ⟨2, ![a, b]⟩ (rsqrtCol hR hφ hacc hC hB x) hB)

theorem meanCol_apply (x : FVec Ideal ⟨2, ![a, b]⟩ .f32) (r : Fin a) (u : Fin 1) :
    meanCol hR hφ hacc hC x (ix2 r u) = mean (fun k => x (ix2 r k)) := by
  show Ideal.div (shapeCast ⟨2, ![a, 1]⟩ _ hC (ix2 r u)) (Ideal.ofBits .f32 0x44800000#32) = _
  rw [shapeCast_a_a1_apply, multiReduction_add_rows]
  rfl

theorem devRows_apply (x : FVec Ideal ⟨2, ![a, b]⟩ .f32) (r : Fin a) (c : Fin b) :
    devRows hR hφ hacc hC hB x (ix2 r c) = x (ix2 r c) - mean (fun k => x (ix2 r k)) := by
  show x (ix2 r c) - broadcastTo ⟨2, ![a, b]⟩ (meanCol hR hφ hacc hC x) hB (ix2 r c) = _
  rw [broadcastTo_a1_ab_apply, meanCol_apply]

theorem rsqrtCol_apply (x : FVec Ideal ⟨2, ![a, b]⟩ .f32) (r : Fin a) (u : Fin 1) :
    rsqrtCol hR hφ hacc hC hB x (ix2 r u) = Ideal.rsqrt (spread (fun k => x (ix2 r k))) := by
  show Ideal.rsqrt (Ideal.div (shapeCast ⟨2, ![a, 1]⟩ _ hC (ix2 r u)) (Ideal.ofBits .f32 0x44800000#32)
    + Ideal.ofBits .f32 0x2EDBE6FF#32) = _
  rw [shapeCast_a_a1_apply, multiReduction_add_rows]
  refine congrArg (fun s => Ideal.rsqrt (Ideal.div s (Ideal.ofBits .f32 0x44800000#32) + Ideal.ofBits .f32 0x2EDBE6FF#32)) ?_
  refine Finset.sum_congr rfl fun k _ => ?_
  show devRows hR hφ hacc hC hB x (ix2 r k) * devRows hR hφ hacc hC hB x (ix2 r k) = _
  rw [devRows_apply]

/-- The normalised rows at `(r, c)`: row `r`'s centred entry at `c` times the reciprocal square root of its spread. -/
theorem normRows_apply (x : FVec Ideal ⟨2, ![a, b]⟩ .f32) (r : Fin a) (c : Fin b) :
    normRows hR hφ hacc hC hB x (ix2 r c) = normMul (fun k => x (ix2 r k)) c := by
  show devRows hR hφ hacc hC hB x (ix2 r c) * broadcastTo ⟨2, ![a, b]⟩ (rsqrtCol hR hφ hacc hC hB x) hB (ix2 r c) = _
  rw [devRows_apply, broadcastTo_a1_ab_apply, rsqrtCol_apply]
  rfl

end

end Cert.Lstm

end
-- ==== Proof.LibMatmulRead.lean ====
/-
  A matrix product into a zero accumulator, read at an index on the extended reals.

  When the dimension numbers contract ONE axis of extent `n`, the product at an output index `j` is the sum over
  `k : Fin n` of the left operand at `L k` times the right operand at `R k`, where `L k`, `R k` are the operand indices
  the dimension numbers assign to `j` and the contraction coordinate `k` (hypotheses `hl`, `hr'`: whatever batch and free
  axes there are, the caller names the two index families once).
-/
import Idealize.ShloMosaic.PureOps.Ideal.Laws
import Idealize.ShloMosaic.Lib.ValueIdx

noncomputable section

namespace Cert.MatmulRead

open Idealize.ShloMosaic Idealize.ShloMosaic.ValueIdx

/-- A product into the zero splat, one contracted axis of extent `n`: `∑ k : Fin n, lhs (L k) * rhs (R k)`. -/
theorem matmul_zero_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl k, hr' k]

end Cert.MatmulRead

end
-- ==== Proof.KernelPre.lean ====
/-
  The first region's block, read at an index.

  At grid point `g` (a gate) the body forms the two products `inp · W_i[g]ᵀ` and `hx · W_h[g]ᵀ` (256 × 1024 each,
  contracting the 1024 input features), normalises each along its rows, scales and shifts each by row `g` of its gain
  and offset matrices, adds the two and row `g` of the bias, and stores the 256 × 1024 result as block `g` of the
  gate-major pre-activation array. Here: what the body leaves in the output's staging buffer is that payload of the
  input blocks (`out0_eq`), and the payload at `(0, r, c)` in closed form over the extended reals (`pay_apply`).
-/
import proofs.«107191_j38560216383688_2_alg».proof.Proof.Gen.KernelIdeal.Frame
import proofs.«107191_j38560216383688_2_alg».proof.Proof.LibNormRows
import proofs.«107191_j38560216383688_2_alg».proof.Proof.LibMatmulRead
import Idealize.ShloMosaic.Lib.Pipeline.Value
import Idealize.ShloMosaic.Lib.ValueLayout
import Idealize.ShloMosaic.Lib.Tactic

noncomputable section

open scoped BigOperators

namespace Cert.KernelIdeal.Pre

open Idealize.ShloMosaic Idealize.ShloMosaic.TcCoe Idealize.SL.Sem Idealize.ShloMosaic.Tactic Idealize.ShloMosaic.ValueIdx
open Cert.KernelIdeal Cert.KernelIdeal.Gen Cert.Lstm

theorem hz3 : (![0, 0, 0] : Fin 3 → Nat) = fun _ => 0 := funext fun a => by fin_cases a <;> rfl
theorem hz2 : (![0, 0] : Fin 2 → Nat) = fun _ => 0 := funext fun a => by fin_cases a <;> rfl

/-- Row `g` of a 4 × 1024 parameter matrix, as the body loads it at grid point `i`. -/
abbrev rowRect (i : grid0.Coords) : Rect S4x1024 := Rect.unit (s := S4x1024) (k0_off1 i) S1x1024.size (k0_off1_inb i)

section AnyF
variable {F : FTy → Type} [FloatOps F]

/-- What the body leaves in the output's staging buffer: its one store's payload of the loaded blocks. -/
theorem out0_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x1024 .f32) (harg9 : arg9.IsWhole) (arg10 : Memref sig .tc .vmem S1x256x1024 .f32) (harg10 : arg10.IsWhole)
    (x0 : Vec F S256x1024 .f32) (x1 : Vec F S256x1024 .f32) (x2 : Vec F S1024x1024 .f32) (x3 : Vec F S1024x1024 .f32) (x4 : Vec F S4x1024 .f32) (x5 : Vec F S4x1024 .f32) (x6 : Vec F S4x1024 .f32) (x7 : Vec F S4x1024 .f32) (x8 : Vec F S4x1024 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = k0_pay1 (k0_pay2 x1 x3) (k0_pay3 x0 x2 (View.ld x5 (rowRect i)) (View.ld x6 (rowRect i))) (View.ld x7 (rowRect i))
          (View.ld x8 (rowRect i)) (View.ld x4 (rowRect i)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, View.ld_unit_zero (S := S256x1024) hz2,
    View.ld_unit_zero (S := S1024x1024) hz2]
  rfl

end AnyF

/-! ## The payload over the extended reals -/

/-- A product `a · wᵀ` into the zero accumulator (both factors first narrowed to bf16: the identity here). -/
def mm (a : Vec Ideal S256x1024 .f32) (w : Vec Ideal S1024x1024 .f32) : FVec Ideal S256x1024 .f32 :=
  matmul dot_S256x1024_S1024x1024_S256x1024_1_1_0_0_n_n none (truncf .bf16 a bitsLt_bf16_f32) (truncf .bf16 w bitsLt_bf16_f32)
    (constant S256x1024 .f32 0x00000000#32)

/-- One loaded parameter row spread over the 256 batch rows. -/
def rowB (l : Vec Ideal S1x1024 .f32) : FVec Ideal S256x1024 .f32 :=
  broadcastTo S256x1024 (shapeCast S1x1024 (shapeCast S1024 l shapeCasts_S1x1024_S1024) shapeCasts_S1024_S1x1024)
    broadcasts_S1x1024_S256x1024

/-- The row normalisation at this block's shape. -/
abbrev nr (x : FVec Ideal S256x1024 .f32) : FVec Ideal S256x1024 .f32 :=
  normRows reduces_S256x1024_S256 (.inl rfl) rfl shapeCasts_S256_S256x1 broadcasts_S256x1_S256x1024 x

theorem nr_apply (x : FVec Ideal S256x1024 .f32) (r : Fin 256) (c : Fin 1024) :
    nr x (ix2 r c) = normMul (fun k => x (ix2 r k)) c :=
  normRows_apply reduces_S256x1024_S256 (.inl rfl) rfl shapeCasts_S256_S256x1 broadcasts_S256x1_S256x1024 x r c

theorem pay2_eq (x1 : Vec Ideal S256x1024 .f32) (x3 : Vec Ideal S1024x1024 .f32) : k0_pay2 x1 x3 = mm x1 x3 := rfl

theorem pay3_eq (x0 : Vec Ideal S256x1024 .f32) (x2 : Vec Ideal S1024x1024 .f32) (l5 l6 : Vec Ideal S1x1024 .f32) :
    k0_pay3 x0 x2 l5 l6 = addf (mulf (nr (mm x0 x2)) (rowB l5)) (rowB l6) := rfl

theorem pay1_eq (v9 v39 : FVec Ideal S256x1024 .f32) (l7 l8 l4 : Vec Ideal S1x1024 .f32) :
    k0_pay1 v9 v39 l7 l8 l4
      = shapeCast S1x256x1024 (addf (addf v39 (addf (mulf (nr v9) (rowB l7)) (rowB l8))) (rowB l4))
          shapeCasts_S256x1024_S1x256x1024 := rfl

/-! ### The product at an index -/

theorem lhs_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem lhs_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem rhs_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product at `(r, c)`: row `r` of the left factor against row `c` of the right one. -/
theorem mm_apply (a : Vec Ideal S256x1024 .f32) (w : Vec Ideal S1024x1024 .f32) (r : Fin 256) (c : Fin 1024) :
    mm a w (ix2 r c) = ∑ k : Fin 1024, a (ix2 r k) * w (ix2 c k) := by
  refine Cert.MatmulRead.matmul_zero_read dot_S256x1024_S1024x1024_S256x1024_1_1_0_0_n_n none 1024 rfl rfl _ _ (ix2 r c)
    (fun k => ix2 r k) (fun k => ix2 c k) (fun k => ?_) (fun k => ?_)
  · have hk := contrEquiv1_symm_val dot_S256x1024_S1024x1024_S256x1024_1_1_0_0_n_n 1024 rfl rfl k
    exact funext fun ax => Fin.ext (by
      match ax with
      | ⟨0, _⟩ => exact lhs_0 _ _
      | ⟨1, _⟩ => exact (lhs_1 _ _).trans hk)
  · have hk := contrEquiv1_symm_val dot_S256x1024_S1024x1024_S256x1024_1_1_0_0_n_n 1024 rfl rfl k
    exact funext fun ax => Fin.ext (by
      match ax with
      | ⟨0, _⟩ => exact rhs_0 _ _
      | ⟨1, _⟩ => exact (rhs_1 _ _).trans hk)

/-- A spread parameter row at `(r, c)` is the row's entry `c`. -/
theorem rowB_apply (l : Vec Ideal S1x1024 .f32) (r : Fin 256) (c : Fin 1024) : rowB l (ix2 r c) = l (ix2 (0 : Fin 1) c) := by
  unfold rowB
  rw [broadcastTo_1b_ab_apply, shapeCast_shapeCast]

/-- The stored payload at `(0, r, c)`. -/
theorem pay_apply (x0 x1 : Vec Ideal S256x1024 .f32) (x2 x3 : Vec Ideal S1024x1024 .f32) (l4 l5 l6 l7 l8 : Vec Ideal S1x1024 .f32)
    (u : Fin 1) (r : Fin 256) (c : Fin 1024) :
    k0_pay1 (k0_pay2 x1 x3) (k0_pay3 x0 x2 l5 l6) l7 l8 l4 (ix3 u r c)
      = (normMul (fun h => ∑ k : Fin 1024, x0 (ix2 r k) * x2 (ix2 h k)) c * l5 (ix2 (0 : Fin 1) c) + l6 (ix2 (0 : Fin 1) c))
        + (normMul (fun h => ∑ k : Fin 1024, x1 (ix2 r k) * x3 (ix2 h k)) c * l7 (ix2 (0 : Fin 1) c) + l8 (ix2 (0 : Fin 1) c))
        + l4 (ix2 (0 : Fin 1) c) := by
  rw [pay2_eq, pay3_eq, pay1_eq, shapeCast_ab_1ab_apply]
  show (nr (mm x0 x2) (ix2 r c) * rowB l5 (ix2 r c) + rowB l6 (ix2 r c))
      + (nr (mm x1 x3) (ix2 r c) * rowB l7 (ix2 r c) + rowB l8 (ix2 r c)) + rowB l4 (ix2 r c) = _
  rw [nr_apply, nr_apply, rowB_apply, rowB_apply, rowB_apply, rowB_apply, rowB_apply]
  simp only [mm_apply]

end Cert.KernelIdeal.Pre

end
-- ==== Proof.LstmSpec.lean ====
/-
  A layer-normalised LSTM cell as one function of its twelve argument arrays, index by index, on the extended reals.

  With batch `b < 256`, gate `g < 4` and hidden coordinate `h < 1024`:
  * `gemm X W b g h = ∑ k, X (b, k) · W (1024·g + h, k)`: the gate pre-activation before normalisation;
  * each of the two products is normalised along `h` (mean, spread, reciprocal square root: `normMul`), scaled and
    shifted by the gate's row of its gain and offset matrices, the two are added, and the gate's slice of the bias
    is added: `pre`;
  * `cy = σ(pre₁) · cx + σ(pre₀) · tanh(pre₂)`;
  * `hy = σ(pre₃) · tanh(normalise(cy) · gain + offset)`.
-/
import proofs.«107191_j38560216383688_2_alg».proof.Proof.LstmAlgebra
import Idealize.ShloMosaic.Lib.ValueIdx

noncomputable section

open scoped BigOperators

namespace Cert.Lstm

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vec1 (a : ℕ) : Type := (⟨1, ![a]⟩ : Shape).Idx → EReal
/-- A rank-3 array of extended reals with literal extents. -/
abbrev Arr3 (a b c : ℕ) : Type := (⟨3, ![a, b, c]⟩ : Shape).Idx → EReal

/-- The twelve arguments. -/
structure Args where
  inp : Mat 256 1024
  hx : Mat 256 1024
  cx : Mat 256 1024
  Wi : Mat 4096 1024
  Wh : Mat 4096 1024
  bias : Vec1 4096
  gi : Mat 4 1024
  bi : Mat 4 1024
  gh : Mat 4 1024
  bh : Mat 4 1024
  gc : Vec1 1024
  bc : Vec1 1024

/-- Row `1024·g + h` of a weight matrix: coordinate `h` of gate `g`. -/
def wrow (g : Fin 4) (h : Fin 1024) : Fin 4096 := ⟨g.val * 1024 + h.val, by omega⟩

theorem wrow_val (g : Fin 4) (h : Fin 1024) : (wrow g h).val = g.val * 1024 + h.val := rfl

/-- A gate's pre-activation before normalisation. -/
def gemm (X : Mat 256 1024) (W : Mat 4096 1024) (b : Fin 256) (g : Fin 4) (h : Fin 1024) : EReal :=
  ∑ k : Fin 1024, X (ix2 b k) * W (ix2 (wrow g h) k)

/-- A gate's pre-activation: the two normalised products, scaled and shifted, plus the bias. -/
def pre (A : Args) (b : Fin 256) (g : Fin 4) (h : Fin 1024) : EReal :=
  (normMul (gemm A.inp A.Wi b g) h * A.gi (ix2 g h) + A.bi (ix2 g h))
    + (normMul (gemm A.hx A.Wh b g) h * A.gh (ix2 g h) + A.bh (ix2 g h))
    + A.bias (ix1 (wrow g h))

/-- The new cell state. -/
def cy (A : Args) (b : Fin 256) (h : Fin 1024) : EReal :=
  Ideal.logistic (pre A b 1 h) * A.cx (ix2 b h) + Ideal.logistic (pre A b 0 h) * Ideal.tanh (pre A b 2 h)

/-- The new hidden state. -/
def hy (A : Args) (b : Fin 256) (h : Fin 1024) : EReal :=
  Ideal.logistic (pre A b 3 h) * Ideal.tanh (normMul (cy A b) h * A.gc (ix1 h) + A.bc (ix1 h))

/-- The pre-activations as a gate-major array. -/
def preArr (A : Args) : Arr3 4 256 1024 := fun j => pre A (j 1) (j 0) (j 2)
/-- The new cell state as an array. -/
def cyArr (A : Args) : Mat 256 1024 := fun j => cy A (j 0) (j 1)
/-- The new hidden state as an array. -/
def hyArr (A : Args) : Mat 256 1024 := fun j => hy A (j 0) (j 1)

end Cert.Lstm

end
-- ==== Proof.KernelPreArr.lean ====
/-
  The first region's output array after the run: the gate-major pre-activations.

  Grid point `g` writes back block `g` of the 4 × 256 × 1024 array; the four blocks tile it. What point `g` writes is the
  body's payload of the input blocks at `g`: the two activation matrices whole, rows `1024·g … 1024·g + 1023` of each
  weight matrix, and row `g` of each of the five 4 × 1024 parameter matrices (the bias among them, reshaped on the host
  from its 4096 entries). Entry by entry that payload is the specification's `pre`.
-/
import proofs.«107191_j38560216383688_2_alg».proof.Proof.KernelPre
import proofs.«107191_j38560216383688_2_alg».proof.Proof.LstmSpec

noncomputable section

open scoped BigOperators

namespace Cert.KernelIdeal.Pre

open Idealize.ShloMosaic Idealize.ShloMosaic.TcCoe Idealize.SL.Sem Idealize.ShloMosaic.ValueIdx
open Idealize.ShloMosaic.Pipeline (Dat)
open Cert.KernelIdeal Cert.KernelIdeal.Gen Cert.Lstm

variable (V : (c : Dev nD) → (b : Ref sig .tc) → Buf (Elt Ideal) ((c : Thread nD τ).loc b))

/-- The printed index maps and the parameter-row offset, decided over the four grid points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0
    ∧ k0_off1 (grid0.coords t) (0 : Fin 2) = t.val ∧ k0_off1 (grid0.coords t) (1 : Fin 2) = 0 ∧ t.val < 4 :=
  (by decide +kernel : ∀ t : Fin grid0.N, _)

/-- The gate a grid point works on. -/
def gOf (t : Fin cfg0.N) : Fin 4 := ⟨t.val, (idx_facts t).2.2.2.2.2.2.2.2.2.2.2.2.2.2.2.2.2.2.2.2.2.2.2⟩

theorem gOf_val (t : Fin cfg0.N) : (gOf t).val = t.val := rfl

section Point
variable (c : Dev nD) (t : Fin cfg0.N)

/-- Window 0 holds its whole matrix at every point. -/
theorem iblk_act0 (r : Fin 256) (k : Fin 1024) : iblk0 V c 0 t (ix2 r k) = V c main_arg0 (ix2 r k) := by
  have e := idx_facts t
  unfold iblk0
  rw [View.read_apply]
  show V c main_arg0 _ = V c main_arg0 _
  refine congrArg (V c main_arg0) (funext fun a => Fin.ext ?_)
  match a with
  | ⟨0, _⟩ => show win0_0.index t 0 * 256 + 1 * r.val = r.val; omega
  | ⟨1, _⟩ => show win0_0.index t 1 * 1024 + 1 * k.val = k.val; omega

/-- Window 1 holds its whole matrix at every point. -/
theorem iblk_act1 (r : Fin 256) (k : Fin 1024) : iblk0 V c 1 t (ix2 r k) = V c main_arg1 (ix2 r k) := by
  have e := idx_facts t
  unfold iblk0
  rw [View.read_apply]
  show V c main_arg1 _ = V c main_arg1 _
  refine congrArg (V c main_arg1) (funext fun a => Fin.ext ?_)
  match a with
  | ⟨0, _⟩ => show win0_1.index t 0 * 256 + 1 * r.val = r.val; omega
  | ⟨1, _⟩ => show win0_1.index t 1 * 1024 + 1 * k.val = k.val; omega

/-- Window 2 holds the gate's 1024 rows of its weight matrix. -/
theorem iblk_w2 (h : Fin 1024) (k : Fin 1024) : iblk0 V c 2 t (ix2 h k) = V c main_arg3 (ix2 (wrow (gOf t) h) k) := by
  have e := idx_facts t
  unfold iblk0
  rw [View.read_apply]
  show V c main_arg3 _ = V c main_arg3 _
  refine congrArg (V c main_arg3) (funext fun a => Fin.ext ?_)
  match a with
  | ⟨0, _⟩ => show win0_2.index t 0 * 1024 + 1 * h.val = t.val * 1024 + h.val; omega
  | ⟨1, _⟩ => show win0_2.index t 1 * 1024 + 1 * k.val = k.val; omega

/-- Window 3 holds the gate's 1024 rows of its weight matrix. -/
theorem iblk_w3 (h : Fin 1024) (k : Fin 1024) : iblk0 V c 3 t (ix2 h k) = V c main_arg4 (ix2 (wrow (gOf t) h) k) := by
  have e := idx_facts t
  unfold iblk0
  rw [View.read_apply]
  show V c main_arg4 _ = V c main_arg4 _
  refine congrArg (V c main_arg4) (funext fun a => Fin.ext ?_)
  match a with
  | ⟨0, _⟩ => show win0_3.index t 0 * 1024 + 1 * h.val = t.val * 1024 + h.val; omega
  | ⟨1, _⟩ => show win0_3.index t 1 * 1024 + 1 * k.val = k.val; omega

/-- The gate's row of window 4's 4 × 1024 matrix, as the body loads it. -/
theorem row_p4 (u : Fin 1) (k : Fin 1024) :
    View.ld (iblk0 V c 4 t) (rowRect (grid0.coords t)) (ix2 u k) = V c main_v0 (ix2 (gOf t) k) := by
  have e := idx_facts t
  unfold iblk0
  show ((cfg0.win 4).blk t).view.read (Elt Ideal) (V c main_v0) _ = _
  rw [View.read_apply]
  show V c main_v0 _ = V c main_v0 _
  refine congrArg (V c main_v0) (funext fun a => Fin.ext ?_)
  match a with
  | ⟨0, _⟩ => show win0_4.index t 0 * 4 + 1 * (k0_off1 (grid0.coords t) 0 + 1 * u.val) = t.val; omega
  | ⟨1, _⟩ => show win0_4.index t 1 * 1024 + 1 * (k0_off1 (grid0.coords t) 1 + 1 * k.val) = k.val; omega

/-- The gate's row of window 5's 4 × 1024 matrix, as the body loads it. -/
theorem row_p5 (u : Fin 1) (k : Fin 1024) :
    View.ld (iblk0 V c 5 t) (rowRect (grid0.coords t)) (ix2 u k) = V c main_arg6 (ix2 (gOf t) k) := by
  have e := idx_facts t
  unfold iblk0
  show ((cfg0.win 5).blk t).view.read (Elt Ideal) (V c main_arg6) _ = _
  rw [View.read_apply]
  show V c main_arg6 _ = V c main_arg6 _
  refine congrArg (V c main_arg6) (funext fun a => Fin.ext ?_)
  match a with
  | ⟨0, _⟩ => show win0_5.index t 0 * 4 + 1 * (k0_off1 (grid0.coords t) 0 + 1 * u.val) = t.val; omega
  | ⟨1, _⟩ => show win0_5.index t 1 * 1024 + 1 * (k0_off1 (grid0.coords t) 1 + 1 * k.val) = k.val; omega

/-- The gate's row of window 6's 4 × 1024 matrix, as the body loads it. -/
theorem row_p6 (u : Fin 1) (k : Fin 1024) :
    View.ld (iblk0 V c 6 t) (rowRect (grid0.coords t)) (ix2 u k) = V c main_arg7 (ix2 (gOf t) k) := by
  have e := idx_facts t
  unfold iblk0
  show ((cfg0.win 6).blk t).view.read (Elt Ideal) (V c main_arg7) _ = _
  rw [View.read_apply]
  show V c main_arg7 _ = V c main_arg7 _
  refine congrArg (V c main_arg7) (funext fun a => Fin.ext ?_)
  match a with
  | ⟨0, _⟩ => show win0_6.index t 0 * 4 + 1 * (k0_off1 (grid0.coords t) 0 + 1 * u.val) = t.val; omega
  | ⟨1, _⟩ => show win0_6.index t 1 * 1024 + 1 * (k0_off1 (grid0.coords t) 1 + 1 * k.val) = k.val; omega

/-- The gate's row of window 7's 4 × 1024 matrix, as the body loads it. -/
theorem row_p7 (u : Fin 1) (k : Fin 1024) :
    View.ld (iblk0 V c 7 t) (rowRect (grid0.coords t)) (ix2 u k) = V c main_arg8 (ix2 (gOf t) k) := by
  have e := idx_facts t
  unfold iblk0
  show ((cfg0.win 7).blk t).view.read (Elt Ideal) (V c main_arg8) _ = _
  rw [View.read_apply]
  show V c main_arg8 _ = V c main_arg8 _
  refine congrArg (V c main_arg8) (funext fun a => Fin.ext ?_)
  match a with
  | ⟨0, _⟩ => show win0_7.index t 0 * 4 + 1 * (k0_off1 (grid0.coords t) 0 + 1 * u.val) = t.val; omega
  | ⟨1, _⟩ => show win0_7.index t 1 * 1024 + 1 * (k0_off1 (grid0.coords t) 1 + 1 * k.val) = k.val; omega

/-- The gate's row of window 8's 4 × 1024 matrix, as the body loads it. -/
theorem row_p8 (u : Fin 1) (k : Fin 1024) :
    View.ld (iblk0 V c 8 t) (rowRect (grid0.coords t)) (ix2 u k) = V c main_arg9 (ix2 (gOf t) k) := by
  have e := idx_facts t
  unfold iblk0
  show ((cfg0.win 8).blk t).view.read (Elt Ideal) (V c main_arg9) _ = _
  rw [View.read_apply]
  show V c main_arg9 _ = V c main_arg9 _
  refine congrArg (V c main_arg9) (funext fun a => Fin.ext ?_)
  match a with
  | ⟨0, _⟩ => show win0_8.index t 0 * 4 + 1 * (k0_off1 (grid0.coords t) 0 + 1 * u.val) = t.val; omega
  | ⟨1, _⟩ => show win0_8.index t 1 * 1024 + 1 * (k0_off1 (grid0.coords t) 1 + 1 * k.val) = k.val; omega

/-- What the region finds in the arrays it reads, as the specification's record of arguments: the activations, the
    weights and the four gain and offset matrices as they are, the bias as a 4 × 1024 matrix of its 4096 entries. -/
structure Entry (A : Args) : Prop where
  inp : ∀ (r : Fin 256) (k : Fin 1024), V c main_arg0 (ix2 r k) = A.inp (ix2 r k)
  hx : ∀ (r : Fin 256) (k : Fin 1024), V c main_arg1 (ix2 r k) = A.hx (ix2 r k)
  Wi : ∀ (n : Fin 4096) (k : Fin 1024), V c main_arg3 (ix2 n k) = A.Wi (ix2 n k)
  Wh : ∀ (n : Fin 4096) (k : Fin 1024), V c main_arg4 (ix2 n k) = A.Wh (ix2 n k)
  bias : ∀ (g : Fin 4) (h : Fin 1024), V c main_v0 (ix2 g h) = A.bias (ix1 (wrow g h))
  gi : ∀ (g : Fin 4) (h : Fin 1024), V c main_arg6 (ix2 g h) = A.gi (ix2 g h)
  bi : ∀ (g : Fin 4) (h : Fin 1024), V c main_arg7 (ix2 g h) = A.bi (ix2 g h)
  gh : ∀ (g : Fin 4) (h : Fin 1024), V c main_arg8 (ix2 g h) = A.gh (ix2 g h)
  bh : ∀ (g : Fin 4) (h : Fin 1024), V c main_arg9 (ix2 g h) = A.bh (ix2 g h)

/-- The payload of the blocks at point `t`, at `(0, r, k)`, is the gate's pre-activation of batch row `r` at `k`. -/
theorem block_apply (A : Args) (hE : Entry V c A) (u : Fin 1) (r : Fin 256) (k : Fin 1024) :
    k0_pay1 (k0_pay2 (iblk0 V c 1 t) (iblk0 V c 3 t))
        (k0_pay3 (iblk0 V c 0 t) (iblk0 V c 2 t) (View.ld (iblk0 V c 5 t) (rowRect (grid0.coords t))) (View.ld (iblk0 V c 6 t) (rowRect (grid0.coords t))))
        (View.ld (iblk0 V c 7 t) (rowRect (grid0.coords t))) (View.ld (iblk0 V c 8 t) (rowRect (grid0.coords t))) (View.ld (iblk0 V c 4 t) (rowRect (grid0.coords t))) (ix3 u r k)
      = pre A r (gOf t) k := by
  refine (pay_apply (iblk0 V c 0 t) (iblk0 V c 1 t) (iblk0 V c 2 t) (iblk0 V c 3 t) (View.ld (iblk0 V c 4 t) (rowRect (grid0.coords t)))
    (View.ld (iblk0 V c 5 t) (rowRect (grid0.coords t))) (View.ld (iblk0 V c 6 t) (rowRect (grid0.coords t))) (View.ld (iblk0 V c 7 t) (rowRect (grid0.coords t)))
    (View.ld (iblk0 V c 8 t) (rowRect (grid0.coords t))) u r k).trans ?_
  simp only [iblk_act0, iblk_act1, iblk_w2, iblk_w3, row_p4, row_p5, row_p6, row_p7, row_p8, hE.inp, hE.hx, hE.Wi, hE.Wh,
    hE.bias, hE.gi, hE.bi, hE.gh, hE.bh]
  rfl

/-- An entry `(u, r, k)` of block `t` sits in the array at `(t, r, k)`. -/
theorem emb9 (u : Fin 1) (r : Fin 256) (k : Fin 1024) :
    ((cfg0.win 9).blk t).view.emb (ix3 u r k) = ix3 (gOf t) r k := by
  have e := idx_facts t
  funext a
  apply Fin.ext
  match a with
  | ⟨0, _⟩ => show win0_9.index t 0 * 1 + 1 * u.val = t.val; omega
  | ⟨1, _⟩ => show win0_9.index t 1 * 256 + 1 * r.val = r.val; omega
  | ⟨2, _⟩ => show win0_9.index t 2 * 1024 + 1 * k.val = k.val; omega

/-- What point `t` writes back is block `t` of the pre-activation array. -/
theorem flushed_eq (A : Args) (hE : Entry V c A) :
    (dat0 V c).flushed 9 t = ((cfg0.win 9).blk t).view.read (Elt Ideal) (preArr A) := by
  show (cfg0.win 9).cut (grid0.coords t) ((dat0 V c).after 9 t) = _
  rw [after0_9]
  unfold outsAt0
  rw [out0_eq]
  funext j
  obtain ⟨u, r, k, rfl⟩ : ∃ (u : Fin 1) (r : Fin 256) (k : Fin 1024), j = ix3 u r k := ⟨j 0, j 1, j 2, eq_ix3 j⟩
  rw [View.read_apply, emb9]
  exact block_apply V c t A hE u r k

end Point

/-- An index of the array is in point `t`'s block iff each coordinate is in the block's range on its axis. -/
theorem mem_blk9 (t : Fin cfg0.N) (i : S4x256x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v3).slice (win0_9.rect t)).set ↔ _
  rw [View.set_slice_whole, Rect.mem_set_unit]
  exact Iff.rfl

/-- The four blocks tile the array, so after the region it holds the pre-activations, gate-major. -/
theorem final_pre (c : Dev nD) (A : Args) (hE : Entry V c A) : (dat0 V c).arrAt 9 cfg0.N = preArr A :=
  (dat0 V c).arrAt_eq_of_cover 9 (preArr A) (fun t _ => flushed_eq V c t A hE) fun i => by
    have hi0 : (i 0).val < 4 := (i 0).isLt
    have hi1 : (i 1).val < 256 := (i 1).isLt
    have hi2 : (i 2).val < 1024 := (i 2).isLt
    obtain ⟨t, ht⟩ : ∃ t : Fin cfg0.N, t.val = (i 0).val := ⟨⟨(i 0).val, by rw [show cfg0.N = 4 from N_0]; exact hi0⟩, rfl⟩
    refine ⟨t, flush0_9 t, ?_⟩
    rw [mem_blk9]
    have e := idx_facts t
    intro a
    match a with
    | ⟨0, _⟩ => show win0_9.index t 0 * 1 ≤ (i 0).val ∧ (i 0).val < win0_9.index t 0 * 1 + 1; omega
    | ⟨1, _⟩ => show win0_9.index t 1 * 256 ≤ (i 1).val ∧ (i 1).val < win0_9.index t 1 * 256 + 256; omega
    | ⟨2, _⟩ => show win0_9.index t 2 * 1024 ≤ (i 2).val ∧ (i 2).val < win0_9.index t 2 * 1024 + 1024; omega

end Cert.KernelIdeal.Pre

end
-- ==== Proof.KernelCombine.lean ====
/-
  The second region's blocks, read at an index.

  At grid point `t` (a half of the batch) the body loads the four gates' 128 × 1024 slabs of the pre-activations and
  the cell state's block, forms `cy = σ(pre₁) · cx + σ(pre₀) · tanh(pre₂)`, normalises it along its rows, scales and
  shifts it by the gain and offset rows, and forms `hy = σ(pre₃) · tanh(...)`; it stores `hy` and `cy` whole. Here: the
  two stored payloads at `(r, c)` in closed form over the extended reals.
-/
import proofs.«107191_j38560216383688_2_alg».proof.Proof.Gen.KernelIdeal.Frame
import proofs.«107191_j38560216383688_2_alg».proof.Proof.LibNormRows
import Idealize.ShloMosaic.Lib.Pipeline.Value
import Idealize.ShloMosaic.Lib.ValueLayout

noncomputable section

open scoped BigOperators

namespace Cert.KernelIdeal.Combine

open Idealize.ShloMosaic Idealize.ShloMosaic.TcCoe Idealize.SL.Sem Idealize.ShloMosaic.ValueIdx
open Cert.KernelIdeal Cert.KernelIdeal.Gen Cert.Lstm

theorem hz2 : (![0, 0] : Fin 2 → Nat) = fun _ => 0 := funext fun a => by fin_cases a <;> rfl

/-- One gate's slab of a 4 × 128 × 1024 block, loaded at offset `(o, 0, 0)` and read at `(u, r, k)`, is the block at
    `(g, r, k)` for the gate `g` whose number is `o`. -/
theorem ld_gate_apply (x0 : Vec Ideal S4x128x1024 .f32) (o : Nat) (g : Fin 4) (hg : g.val = o)
    (inb : ∀ a, (![o, 0, 0] : Fin 3 → Nat) a + S1x128x1024.size a ≤ S4x128x1024.size a) (u : Fin 1) (r : Fin 128) (k : Fin 1024) :
    View.ld x0 (Rect.unit (s := S4x128x1024) ![o, 0, 0] S1x128x1024.size inb) (ix3 u r k) = x0 (ix3 g r k) := by
  show x0 _ = x0 _
  refine congrArg x0 (funext fun a => Fin.ext ?_)
  match a with
  | ⟨0, _⟩ => show o + 1 * u.val = g.val; omega
  | ⟨1, _⟩ => show 0 + 1 * r.val = r.val; omega
  | ⟨2, _⟩ => show 0 + 1 * k.val = k.val; omega

/-- A gate's slab viewed as a 128 × 1024 matrix. -/
def slab (v : Vec Ideal S1x128x1024 .f32) : FVec Ideal S128x1024 .f32 :=
  shapeCast S128x1024 v shapeCasts_S1x128x1024_S128x1024

theorem slab_apply (v : Vec Ideal S1x128x1024 .f32) (r : Fin 128) (k : Fin 1024) : slab v (ix2 r k) = v (ix3 (0 : Fin 1) r k) :=
  shapeCast_1ab_ab_apply v _ r k

/-- The row normalisation at this block's shape. -/
abbrev nr (x : FVec Ideal S128x1024 .f32) : FVec Ideal S128x1024 .f32 :=
  normRows reduces_S128x1024_S128 (.inl rfl) rfl shapeCasts_S128_S128x1 broadcasts_S128x1_S128x1024 x

theorem nr_apply (x : FVec Ideal S128x1024 .f32) (r : Fin 128) (c : Fin 1024) :
    nr x (ix2 r c) = normMul (fun k => x (ix2 r k)) c :=
  normRows_apply reduces_S128x1024_S128 (.inl rfl) rfl shapeCasts_S128_S128x1 broadcasts_S128x1_S128x1024 x r c

/-- One parameter row spread over the 128 rows of the block. -/
def rowB (l : Vec Ideal S1x1024 .f32) : FVec Ideal S128x1024 .f32 :=
  broadcastTo S128x1024 (shapeCast S1x1024 l shapeCasts_S1x1024_S1x1024) broadcasts_S1x1024_S128x1024

theorem rowB_apply (l : Vec Ideal S1x1024 .f32) (r : Fin 128) (c : Fin 1024) : rowB l (ix2 r c) = l (ix2 (0 : Fin 1) c) := by
  unfold rowB
  rw [broadcastTo_1b_ab_apply, shapeCast_self]

/-- The new cell state's block, from the three gates' slabs and the old cell state's block. -/
def cyBlk (v0 v3 v6 : Vec Ideal S1x128x1024 .f32) (v12 : Vec Ideal S128x1024 .f32) : FVec Ideal S128x1024 .f32 :=
  addf (mulf (logistic (slab v3)) v12) (mulf (logistic (slab v0)) (tanh (slab v6)))

theorem pay3_eq (v0 v3 v6 : Vec Ideal S1x128x1024 .f32) (v12 : Vec Ideal S128x1024 .f32) :
    k1_pay3 v0 v3 v6 v12 = cyBlk v0 v3 v6 v12 := rfl

theorem cyBlk_apply (v0 v3 v6 : Vec Ideal S1x128x1024 .f32) (v12 : Vec Ideal S128x1024 .f32) (r : Fin 128) (k : Fin 1024) :
    cyBlk v0 v3 v6 v12 (ix2 r k)
      = Ideal.logistic (v3 (ix3 (0 : Fin 1) r k)) * v12 (ix2 r k)
        + Ideal.logistic (v0 (ix3 (0 : Fin 1) r k)) * Ideal.tanh (v6 (ix3 (0 : Fin 1) r k)) := by
  show Ideal.logistic (slab v3 (ix2 r k)) * v12 (ix2 r k) + Ideal.logistic (slab v0 (ix2 r k)) * Ideal.tanh (slab v6 (ix2 r k)) = _
  rw [slab_apply, slab_apply, slab_apply]

theorem hyPay_eq (v0 v3 v6 v9 : Vec Ideal S1x128x1024 .f32) (v12 : Vec Ideal S128x1024 .f32) (l2 l3 : Vec Ideal S1x1024 .f32) :
    k1_pay1 (k1_pay2 v9) (k1_pay4 l2) (k1_pay5 l3) (k1_pay7 v0 v3 v6 v12) (k1_pay8 v0 v3 v6 v12)
      = mulf (logistic (slab v9)) (tanh (addf (mulf (nr (cyBlk v0 v3 v6 v12)) (rowB l2)) (rowB l3))) := rfl

theorem hyPay_apply (v0 v3 v6 v9 : Vec Ideal S1x128x1024 .f32) (v12 : Vec Ideal S128x1024 .f32) (l2 l3 : Vec Ideal S1x1024 .f32)
    (r : Fin 128) (c : Fin 1024) :
    k1_pay1 (k1_pay2 v9) (k1_pay4 l2) (k1_pay5 l3) (k1_pay7 v0 v3 v6 v12) (k1_pay8 v0 v3 v6 v12) (ix2 r c)
      = Ideal.logistic (v9 (ix3 (0 : Fin 1) r c))
        * Ideal.tanh (normMul (fun k => cyBlk v0 v3 v6 v12 (ix2 r k)) c * l2 (ix2 (0 : Fin 1) c) + l3 (ix2 (0 : Fin 1) c)) := by
  rw [hyPay_eq]
  show Ideal.logistic (slab v9 (ix2 r c))
      * Ideal.tanh (nr (cyBlk v0 v3 v6 v12) (ix2 r c) * rowB l2 (ix2 r c) + rowB l3 (ix2 r c)) = _
  rw [slab_apply, nr_apply, rowB_apply, rowB_apply]

end Cert.KernelIdeal.Combine

end
-- ==== Proof.KernelCombineArr.lean ====
/-
  The second region's two output arrays after the run: the new hidden and cell states.

  Grid point `t` writes back rows `128·t … 128·t + 127` of each output; the two blocks tile each array. What point `t`
  writes is the body's payload of the input blocks at `t`: for every gate the same 128 batch rows of the
  pre-activations, those rows of the old cell state, and the gain and offset rows. Entry by entry the payloads are the
  specification's `cy` and `hy`.
-/
import proofs.«107191_j38560216383688_2_alg».proof.Proof.KernelCombine
import proofs.«107191_j38560216383688_2_alg».proof.Proof.LstmSpec

noncomputable section

open scoped BigOperators

namespace Cert.KernelIdeal.Combine

open Idealize.ShloMosaic Idealize.ShloMosaic.TcCoe Idealize.SL.Sem Idealize.ShloMosaic.ValueIdx
open Idealize.ShloMosaic.Pipeline (Dat)
open Cert.KernelIdeal Cert.KernelIdeal.Gen Cert.Lstm

variable (V : (c : Dev nD) → (b : Ref sig .tc) → Buf (Elt Ideal) ((c : Thread nD τ).loc b))

/-- The printed index maps, decided over the two grid points. -/
theorem idx_facts1 : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 ∧ t.val < 2 :=
  (by decide +kernel : ∀ t : Fin grid1.N, _)

/-- Batch row `128·t + r`: row `r` of the half point `t` works on. -/
def bOf (t : Fin cfg1.N) (r : Fin 128) : Fin 256 :=
  ⟨t.val * 128 + r.val, by have := (idx_facts1 t).2.2.2.2.2.2.2.2.2.2.2.2.2; have := r.isLt; omega⟩

theorem bOf_val (t : Fin cfg1.N) (r : Fin 128) : (bOf t r).val = t.val * 128 + r.val := rfl

section Point
variable (c : Dev nD) (t : Fin cfg1.N)

/-- The pre-activations' window holds, for every gate, the half's 128 batch rows. -/
theorem blk_pre (g : Fin 4) (r : Fin 128) (k : Fin 1024) :
    iblk1 V c 0 t (ix3 g r k) = V c main_v3 (ix3 g (bOf t r) k) := by
  have e := idx_facts1 t
  unfold iblk1
  rw [View.read_apply]
  show V c main_v3 _ = V c main_v3 _
  refine congrArg (V c main_v3) (funext fun a => Fin.ext ?_)
  match a with
  | ⟨0, _⟩ => show win1_0.index t 0 * 4 + 1 * g.val = g.val; omega
  | ⟨1, _⟩ => show win1_0.index t 1 * 128 + 1 * r.val = t.val * 128 + r.val; omega
  | ⟨2, _⟩ => show win1_0.index t 2 * 1024 + 1 * k.val = k.val; omega

/-- The old cell state's window holds the half's 128 batch rows. -/
theorem blk_cx (r : Fin 128) (k : Fin 1024) : iblk1 V c 1 t (ix2 r k) = V c main_arg2 (ix2 (bOf t r) k) := by
  have e := idx_facts1 t
  unfold iblk1
  rw [View.read_apply]
  show V c main_arg2 _ = V c main_arg2 _
  refine congrArg (V c main_arg2) (funext fun a => Fin.ext ?_)
  match a with
  | ⟨0, _⟩ => show win1_1.index t 0 * 128 + 1 * r.val = t.val * 128 + r.val; omega
  | ⟨1, _⟩ => show win1_1.index t 1 * 1024 + 1 * k.val = k.val; omega

/-- Window 2 holds its one row whole at every point. -/
theorem blk_row2 (u : Fin 1) (k : Fin 1024) : iblk1 V c 2 t (ix2 u k) = V c main_v1 (ix2 u k) := by
  have e := idx_facts1 t
  unfold iblk1
  rw [View.read_apply]
  show V c main_v1 _ = V c main_v1 _
  refine congrArg (V c main_v1) (funext fun a => Fin.ext ?_)
  match a with
  | ⟨0, _⟩ => show win1_2.index t 0 * 1 + 1 * u.val = u.val; omega
  | ⟨1, _⟩ => show win1_2.index t 1 * 1024 + 1 * k.val = k.val; omega

/-- Window 3 holds its one row whole at every point. -/
theorem blk_row3 (u : Fin 1) (k : Fin 1024) : iblk1 V c 3 t (ix2 u k) = V c main_v2 (ix2 u k) := by
  have e := idx_facts1 t
  unfold iblk1
  rw [View.read_apply]
  show V c main_v2 _ = V c main_v2 _
  refine congrArg (V c main_v2) (funext fun a => Fin.ext ?_)
  match a with
  | ⟨0, _⟩ => show win1_3.index t 0 * 1 + 1 * u.val = u.val; omega
  | ⟨1, _⟩ => show win1_3.index t 1 * 1024 + 1 * k.val = k.val; omega

/-- What the region finds in the arrays it reads, as the specification's record of arguments: the gate-major
    pre-activations, the old cell state, and the normalisation's gain and offset as one-row matrices. -/
structure Entry (A : Args) : Prop where
  pre : ∀ (g : Fin 4) (b : Fin 256) (k : Fin 1024), V c main_v3 (ix3 g b k) = pre A b g k
  cx : ∀ (b : Fin 256) (k : Fin 1024), V c main_arg2 (ix2 b k) = A.cx (ix2 b k)
  gc : ∀ (u : Fin 1) (k : Fin 1024), V c main_v1 (ix2 u k) = A.gc (ix1 k)
  bc : ∀ (u : Fin 1) (k : Fin 1024), V c main_v2 (ix2 u k) = A.bc (ix1 k)

/-- Gate `g`'s slab of the block at point `t`. -/
theorem gate_blk (o : Nat) (g : Fin 4) (hg : g.val = o)
    (inb : ∀ a, (![o, 0, 0] : Fin 3 → Nat) a + S1x128x1024.size a ≤ S4x128x1024.size a) (u : Fin 1) (r : Fin 128) (k : Fin 1024) :
    View.ld (iblk1 V c 0 t) (Rect.unit (s := S4x128x1024) ![o, 0, 0] S1x128x1024.size inb) (ix3 u r k)
      = V c main_v3 (ix3 g (bOf t r) k) :=
  (ld_gate_apply (iblk1 V c 0 t) o g hg inb u r k).trans (blk_pre V c t g r k)

/-- The new cell state's block at point `t`, at `(r, k)`. -/
theorem cy_block (A : Args) (hE : Entry V c A) (r : Fin 128) (k : Fin 1024) :
    cyBlk (View.ld (iblk1 V c 0 t) r1_0) (View.ld (iblk1 V c 0 t) r1_1) (View.ld (iblk1 V c 0 t) r1_2) (iblk1 V c 1 t) (ix2 r k)
      = cy A (bOf t r) k := by
  rw [cyBlk_apply, gate_blk V c t 1 1 rfl, gate_blk V c t 0 0 rfl, gate_blk V c t 2 2 rfl, blk_cx, hE.pre, hE.pre, hE.pre, hE.cx]
  rfl

/-- An entry `(r, k)` of block `t` of either output sits in the array at `(128·t + r, k)`. -/
theorem emb4 (r : Fin 128) (k : Fin 1024) : ((cfg1.win 4).blk t).view.emb (ix2 r k) = ix2 (bOf t r) k := by
  have e := idx_facts1 t
  funext a
  apply Fin.ext
  match a with
  | ⟨0, _⟩ => show win1_4.index t 0 * 128 + 1 * r.val = t.val * 128 + r.val; omega
  | ⟨1, _⟩ => show win1_4.index t 1 * 1024 + 1 * k.val = k.val; omega
theorem emb5 (r : Fin 128) (k : Fin 1024) : ((cfg1.win 5).blk t).view.emb (ix2 r k) = ix2 (bOf t r) k := by
  have e := idx_facts1 t
  funext a
  apply Fin.ext
  match a with
  | ⟨0, _⟩ => show win1_5.index t 0 * 128 + 1 * r.val = t.val * 128 + r.val; omega
  | ⟨1, _⟩ => show win1_5.index t 1 * 1024 + 1 * k.val = k.val; omega

/-- What point `t` writes back of the cell state is block `t` of `cy`. -/
theorem flushed5_eq (A : Args) (hE : Entry V c A) :
    (dat1 V c).flushed 5 t = ((cfg1.win 5).blk t).view.read (Elt Ideal) (cyArr A) := by
  show (cfg1.win 5).cut (grid1.coords t) ((dat1 V c).after 5 t) = _
  rw [after1_5]
  unfold out1_5
  rw [View.canon_unit_zero hz2]
  simp only [View.ld_unit_zero (S := S128x1024) hz2]
  funext j
  obtain ⟨r, k, rfl⟩ : ∃ (r : Fin 128) (k : Fin 1024), j = ix2 r k := ⟨j 0, j 1, eq_ix2 j⟩
  rw [View.read_apply, emb5, pay3_eq]
  exact cy_block V c t A hE r k

/-- What point `t` writes back of the hidden state is block `t` of `hy`. -/
theorem flushed4_eq (A : Args) (hE : Entry V c A) :
    (dat1 V c).flushed 4 t = ((cfg1.win 4).blk t).view.read (Elt Ideal) (hyArr A) := by
  show (cfg1.win 4).cut (grid1.coords t) ((dat1 V c).after 4 t) = _
  rw [after1_4]
  unfold out1_4
  rw [View.canon_unit_zero hz2]
  simp only [View.ld_unit_zero (S := S128x1024) hz2, View.ld_unit_zero (S := S1x1024) hz2]
  funext j
  obtain ⟨r, k, rfl⟩ : ∃ (r : Fin 128) (k : Fin 1024), j = ix2 r k := ⟨j 0, j 1, eq_ix2 j⟩
  rw [View.read_apply, emb4]
  refine (hyPay_apply (View.ld (iblk1 V c 0 t) r1_0) (View.ld (iblk1 V c 0 t) r1_1) (View.ld (iblk1 V c 0 t) r1_2)
    (View.ld (iblk1 V c 0 t) r1_3) (iblk1 V c 1 t) (iblk1 V c 2 t) (iblk1 V c 3 t) r k).trans ?_
  simp only [cy_block V c t A hE]
  rw [gate_blk V c t 3 3 rfl, blk_row2, blk_row3, hE.pre, hE.gc, hE.bc]
  rfl

end Point

/-- An index of either output array is in point `t`'s block iff each coordinate is in the block's range on its axis. -/
theorem mem_blk4 (t : Fin cfg1.N) (i : S256x1024.Idx) :
    i ∈ ((cfg1.win 4).blk t).view.set ↔ ∀ a : Fin 2, win1_4.index t a * S128x1024.size a ≤ (i a).val
      ∧ (i a).val < win1_4.index t a * S128x1024.size a + S128x1024.size a := by
  show i ∈ ((View.whole main_v4_0).slice (win1_4.rect t)).set ↔ _
  rw [View.set_slice_whole, Rect.mem_set_unit]
  exact Iff.rfl
theorem mem_blk5 (t : Fin cfg1.N) (i : S256x1024.Idx) :
    i ∈ ((cfg1.win 5).blk t).view.set ↔ ∀ a : Fin 2, win1_5.index t a * S128x1024.size a ≤ (i a).val
      ∧ (i a).val < win1_5.index t a * S128x1024.size a + S128x1024.size a := by
  show i ∈ ((View.whole main_v4_1).slice (win1_5.rect t)).set ↔ _
  rw [View.set_slice_whole, Rect.mem_set_unit]
  exact Iff.rfl

/-- The two blocks tile each array, so after the region the outputs hold `hy` and `cy`. -/
theorem final_hy (c : Dev nD) (A : Args) (hE : Entry V c A) : (dat1 V c).arrAt 4 cfg1.N = hyArr A :=
  (dat1 V c).arrAt_eq_of_cover 4 (hyArr A) (fun t _ => flushed4_eq V c t A hE) fun i => by
    have hi0 : (i 0).val < 256 := (i 0).isLt
    have hi1 : (i 1).val < 1024 := (i 1).isLt
    obtain ⟨t, ht⟩ : ∃ t : Fin cfg1.N, t.val = (i 0).val / 128 :=
      ⟨⟨(i 0).val / 128, by rw [show cfg1.N = 2 from N_1]; omega⟩, rfl⟩
    refine ⟨t, flush1_4 t, ?_⟩
    rw [mem_blk4]
    have e := idx_facts1 t
    intro a
    match a with
    | ⟨0, _⟩ => show win1_4.index t 0 * 128 ≤ (i 0).val ∧ (i 0).val < win1_4.index t 0 * 128 + 128; omega
    | ⟨1, _⟩ => show win1_4.index t 1 * 1024 ≤ (i 1).val ∧ (i 1).val < win1_4.index t 1 * 1024 + 1024; omega

theorem final_cy (c : Dev nD) (A : Args) (hE : Entry V c A) : (dat1 V c).arrAt 5 cfg1.N = cyArr A :=
  (dat1 V c).arrAt_eq_of_cover 5 (cyArr A) (fun t _ => flushed5_eq V c t A hE) fun i => by
    have hi0 : (i 0).val < 256 := (i 0).isLt
    have hi1 : (i 1).val < 1024 := (i 1).isLt
    obtain ⟨t, ht⟩ : ∃ t : Fin cfg1.N, t.val = (i 0).val / 128 :=
      ⟨⟨(i 0).val / 128, by rw [show cfg1.N = 2 from N_1]; omega⟩, rfl⟩
    refine ⟨t, flush1_5 t, ?_⟩
    rw [mem_blk5]
    have e := idx_facts1 t
    intro a
    match a with
    | ⟨0, _⟩ => show win1_5.index t 0 * 128 ≤ (i 0).val ∧ (i 0).val < win1_5.index t 0 * 128 + 128; omega
    | ⟨1, _⟩ => show win1_5.index t 1 * 1024 ≤ (i 1).val ∧ (i 1).val < win1_5.index t 1 * 1024 + 1024; omega

end Cert.KernelIdeal.Combine

end
-- ==== Proof.KernelValue.lean ====
/-
  The idealized kernel's run with its two result arrays as the specification's functions of the arguments.

  The host reshapes the bias to 4 × 1024 and the cell normalisation's gain and offset to one-row matrices; the first
  region then finds the arguments as launched and leaves the gate-major pre-activations; the second region finds
  those, the old cell state and the two one-row matrices, and leaves `hy` and `cy`.
-/
import proofs.«107191_j38560216383688_2_alg».proof.Proof.KernelRun
import proofs.«107191_j38560216383688_2_alg».proof.Proof.KernelPreArr
import proofs.«107191_j38560216383688_2_alg».proof.Proof.KernelCombineArr
import Idealize.ShloMosaic.Lib.StableHlo.Run

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.Lstm

variable (m : (ℓ : Loc nD τ sig) → Buf (Elt Ideal) ℓ) (ρ : Dev nD → PrngReg)

/-- The kernel's twelve argument arrays, as launched, as the cell's record. -/
def args (c : Dev nD) : Args where
  inp := m ((c : Thread nD τ).loc main_arg0)
  hx := m ((c : Thread nD τ).loc main_arg1)
  cx := m ((c : Thread nD τ).loc main_arg2)
  Wi := m ((c : Thread nD τ).loc main_arg3)
  Wh := m ((c : Thread nD τ).loc main_arg4)
  bias := m ((c : Thread nD τ).loc main_arg5)
  gi := m ((c : Thread nD τ).loc main_arg6)
  bi := m ((c : Thread nD τ).loc main_arg7)
  gh := m ((c : Thread nD τ).loc main_arg8)
  bh := m ((c : Thread nD τ).loc main_arg9)
  gc := m ((c : Thread nD τ).loc main_arg10)
  bc := m ((c : Thread nD τ).loc main_arg11)

/-! ## The contents the first region finds: the arguments as launched, three of them also reshaped -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results

theorem V1_v0 (c : Dev nD) :
    V1 m ρ c main_v0 = shapeCast S4x1024 (m ((c : Thread nD τ).loc main_arg5)) shapeCasts_S4096_S4x1024 := by
  show StableHlo.after hostOps0 (W0 m ρ c) (Proc.devRef .tc main_v0) = _
  after_results
  rfl
theorem V1_v1 (c : Dev nD) :
    V1 m ρ c main_v1 = shapeCast S1x1024 (m ((c : Thread nD τ).loc main_arg10)) shapeCasts_S1024_S1x1024 := by
  show StableHlo.after hostOps0 (W0 m ρ c) (Proc.devRef .tc main_v1) = _
  after_results
  rfl
theorem V1_v2 (c : Dev nD) :
    V1 m ρ c main_v2 = shapeCast S1x1024 (m ((c : Thread nD τ).loc main_arg11)) shapeCasts_S1024_S1x1024 := by
  show StableHlo.after hostOps0 (W0 m ρ c) (Proc.devRef .tc main_v2) = _
  after_results
  rfl

/-- The first region finds the arguments as the record states them; the bias as a 4 × 1024 matrix reads entry
    `1024·g + h` of its 4096 at `(g, h)`. -/
theorem entry0 (c : Dev nD) : Pre.Entry (V1 m ρ) c (args m c) where
  inp r k := congrFun (V1_arg0 m ρ c) (ix2 r k)
  hx r k := congrFun (V1_arg1 m ρ c) (ix2 r k)
  Wi n k := congrFun (V1_arg3 m ρ c) (ix2 n k)
  Wh n k := congrFun (V1_arg4 m ρ c) (ix2 n k)
  bias g h := by
    rw [V1_v0]
    refine shapeCast_apply _ _ _ _ ?_
    show ((⟨1, ![4096]⟩ : Shape).rowMajor (ix1 (wrow g h))).val = ((⟨2, ![4, 1024]⟩ : Shape).rowMajor (ix2 g h)).val
    rw [Shape.rowMajor_val_one, Shape.rowMajor_val_two]
    rfl
  gi g h := congrFun (V1_arg6 m ρ c) (ix2 g h)
  bi g h := congrFun (V1_arg7 m ρ c) (ix2 g h)
  gh g h := congrFun (V1_arg8 m ρ c) (ix2 g h)
  bh g h := congrFun (V1_arg9 m ρ c) (ix2 g h)

/-! ## The contents the second region finds -/

/-- The pre-activation array after the first region. -/
theorem V2_pre (c : Dev nD) : V2 m ρ c main_v3 = preArr (args m c) :=
  (W2_arr m ρ c 9).trans (Pre.final_pre (V1 m ρ) c (args m c) (entry0 m ρ c))

theorem entry1 (c : Dev nD) : Combine.Entry (V2 m ρ) c (args m c) where
  pre g b k := congrFun (V2_pre m ρ c) (ix3 g b k)
  cx b k := by
    have h : V2 m ρ c main_arg2 = V1 m ρ c main_arg2 := W2_of_ne m ρ c main_arg2 (by decide)
    rw [h, V1_arg2]; rfl
  gc u k := by
    have h : V2 m ρ c main_v1 = V1 m ρ c main_v1 := W2_of_ne m ρ c main_v1 (by decide)
    rw [h, V1_v1]
    exact shapeCast_a_1a_apply _ _ u k
  bc u k := by
    have h : V2 m ρ c main_v2 = V1 m ρ c main_v2 := W2_of_ne m ρ c main_v2 (by decide)
    rw [h, V1_v2]
    exact shapeCast_a_1a_apply _ _ u k

/-! ## The run -/

/-- Every weakly fair execution terminates with the new hidden state at `hy`, the new cell state at `cy` of the
    arguments as launched, and the arguments unchanged. -/
theorem run : θ_run defs (onTc (τ := τ) (main (F := Ideal))) ⟨m, fun _ => 0, ρ⟩ (fun r => ∀ c : Dev nD,
      r.2.mem ((c.tc : Thread nD τ).loc main_v4_0) = hyArr (args m c)
      ∧ r.2.mem ((c.tc : Thread nD τ).loc main_v4_1) = cyArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c).1.trans ((Run.W3_hy m ρ c).trans (Combine.final_hy (V2 m ρ) c (args m c) (entry1 m ρ c))),
      (h c).2.1.trans ((Run.W3_cy m ρ c).trans (Combine.final_cy (V2 m ρ) c (args m c) (entry1 m ρ c))),
      (h c).2.2⟩)
    (Run.run_W3 m ρ)

end Cert.KernelIdeal.Value

end
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.RefReadA.lean ====
/-
  The reference's gate pre-activations read at an index.

  The reference computes, for batch `b < 256`, gate `g < 4` and hidden coordinate `h < 1024`: two matrix products viewed
  as `[256, 4, 1024]` arrays; for each, the mean of row `(b, g)`, the deviations, the mean of their squares plus a small
  constant, its square root, and the quotient of the deviations by it; then gain, offset, the sum of the two and the
  bias. Each stage is named here as a function of its operand and read at `(b, g, h)`; the quotient by the square root
  is the product with the reciprocal square root because the quantity under the root is positive. The result at
  `(b, g, h)` is the cell's pre-activation `pre`.
-/
import proofs.«107191_j38560216383688_2_alg».proof.Proof.Gen.ReferenceIdeal.Run
import proofs.«107191_j38560216383688_2_alg».proof.Proof.LstmSpec
import proofs.«107191_j38560216383688_2_alg».proof.Proof.LibHostRead

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.StableHlo
open Idealize.ShloMosaic.ValueIdx Cert.HostRead Cert.Lstm

/-- The reference's twelve argument arrays as the cell's record. -/
def args (V0 : Valuation τ sig (Elt Ideal)) : Cert.Lstm.Args where
  inp := V0 (Proc.devRef .tc main_arg0)
  hx := V0 (Proc.devRef .tc main_arg1)
  cx := V0 (Proc.devRef .tc main_arg2)
  Wi := V0 (Proc.devRef .tc main_arg3)
  Wh := V0 (Proc.devRef .tc main_arg4)
  bias := V0 (Proc.devRef .tc main_arg5)
  gi := V0 (Proc.devRef .tc main_arg6)
  bi := V0 (Proc.devRef .tc main_arg7)
  gh := V0 (Proc.devRef .tc main_arg8)
  bh := V0 (Proc.devRef .tc main_arg9)
  gc := V0 (Proc.devRef .tc main_arg10)
  bc := V0 (Proc.devRef .tc main_arg11)

/-! ## The host's one-operand operations at an index -/

section Unary
variable {s : Shape} {φ : FTy}
theorem hostSqrt_apply (a : FVec Ideal s φ) (i : s.Idx) : Host.sqrt a i = Ideal.sqrt (a i) := rfl
theorem hostExp_apply (a : FVec Ideal s φ) (i : s.Idx) : Host.exp a i = Ideal.exp (a i) := rfl
theorem hostTanh_apply (a : FVec Ideal s φ) (i : s.Idx) : Host.tanh a i = Ideal.tanh (a i) := rfl
theorem hostNegf_apply (a : FVec Ideal s φ) (i : s.Idx) : Host.negf a i = -(a i) := rfl
end Unary

/-! ## The matrix products -/

/-- The product's left operand index: the output row on axis 0 … -/
theorem lhs_0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
/-- … and the contraction coordinate on axis 1. -/
theorem lhs_1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
/-- The right operand index: the output column on axis 0 … -/
theorem rhs_0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
/-- … and the contraction coordinate on axis 1. -/
theorem rhs_1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The product at `(b, q)`: `∑ k, X (b, k) · W (q, k)`. -/
theorem dot_apply (X : FVec Ideal S256x1024 .f32) (W : FVec Ideal S4096x1024 .f32) (b : Fin 256) (q : Fin 4096) :
    Host.dotGeneral dot_S256x1024_S4096x1024_S256x4096_1_1_0_0_n_n none X W (ix2 b q)
      = ∑ k : Fin 1024, X (ix2 b k) * W (ix2 q k) := by
  refine dotGeneral_read dot_S256x1024_S4096x1024_S256x4096_1_1_0_0_n_n none 1024 rfl rfl X W (ix2 b q)
    (fun k => ix2 b k) (fun k => ix2 q k) (fun k => ?_) (fun k => ?_)
  · have hk := contrEquiv1_symm_val dot_S256x1024_S4096x1024_S256x4096_1_1_0_0_n_n 1024 rfl rfl k
    funext a
    refine Fin.ext ?_
    match a with
    | ⟨0, _⟩ => exact lhs_0 _ _
    | ⟨1, _⟩ => exact (lhs_1 _ _).trans hk
  · have hk := contrEquiv1_symm_val dot_S256x1024_S4096x1024_S256x4096_1_1_0_0_n_n 1024 rfl rfl k
    funext a
    refine Fin.ext ?_
    match a with
    | ⟨0, _⟩ => exact rhs_0 _ _
    | ⟨1, _⟩ => exact (rhs_1 _ _).trans hk

/-- The product viewed as `[256, 4, 1024]`, at `(b, g, h)`: the cell's `gemm`. -/
theorem gates_apply (X : FVec Ideal S256x1024 .f32) (W : FVec Ideal S4096x1024 .f32) (b : Fin 256) (g : Fin 4) (h : Fin 1024) :
    shapeCast S256x4x1024 (Host.dotGeneral dot_S256x1024_S4096x1024_S256x4096_1_1_0_0_n_n none X W)
        shapeCasts_S256x4096_S256x4x1024 (ix3 b g h) = gemm X W b g h :=
  (shapeCast_an_abc_apply (by norm_num) _ shapeCasts_S256x4096_S256x4x1024 b g h (wrow g h) rfl).trans
    (dot_apply X W b (wrow g h))

theorem res_v1_apply (V0 : Valuation τ sig (Elt Ideal)) (b : Fin 256) (g : Fin 4) (h : Fin 1024) :
    res_main_v1 (F := Ideal) V0 (ix3 b g h) = gemm (args V0).inp (args V0).Wi b g h :=
  gates_apply _ _ b g h

theorem res_v3_apply (V0 : Valuation τ sig (Elt Ideal)) (b : Fin 256) (g : Fin 4) (h : Fin 1024) :
    res_main_v3 (F := Ideal) V0 (ix3 b g h) = gemm (args V0).hx (args V0).Wh b g h :=
  gates_apply _ _ b g h

/-! ## A row's normalisation in the reference's spelling, rank 3 -/

/-- The column of row means. -/
def meanC (x : FVec Ideal S256x4x1024 .f32) : FVec Ideal S256x4x1 .f32 :=
  Host.divf (broadcastInDim S256x4x1 ![0, 1] bcast_S256x4_S256x4x1_0_1 (Host.reduceAdd x (constant (F := Ideal) S_ .f32 0x00000000#32) reducesTo_S256x4x1024_S256x4_d2 h_S_)) (broadcastInDim S256x4x1 ![] bcast_S_S256x4x1 (constant (F := Ideal) S_ .f32 0x44800000#32))

/-- The deviations from the row means. -/
def devC (x : FVec Ideal S256x4x1024 .f32) : FVec Ideal S256x4x1024 .f32 :=
  subf x (broadcastInDim S256x4x1024 ![0, 1, 2] bcast_S256x4x1_S256x4x1024_0_1_2 (meanC x))

/-- The column of square roots of the rows' spreads. -/
def sdC (x : FVec Ideal S256x4x1024 .f32) : FVec Ideal S256x4x1 .f32 :=
  Host.sqrt (addf (Host.divf (broadcastInDim S256x4x1 ![0, 1] bcast_S256x4_S256x4x1_0_1 (Host.reduceAdd (mulf (devC x) (devC x)) (constant (F := Ideal) S_ .f32 0x00000000#32) reducesTo_S256x4x1024_S256x4_d2 h_S_)) (broadcastInDim S256x4x1 ![] bcast_S_S256x4x1 (constant (F := Ideal) S_ .f32 0x44800000#32))) (broadcastInDim S256x4x1 ![] bcast_S_S256x4x1 (constant (F := Ideal) S_ .f32 0x2EDBE6FF#32)))

/-- The normalised rows: deviations divided by the square root of the spread. -/
def normD (x : FVec Ideal S256x4x1024 .f32) : FVec Ideal S256x4x1024 .f32 :=
  Host.divf (devC x) (broadcastInDim S256x4x1024 ![0, 1, 2] bcast_S256x4x1_S256x4x1024_0_1_2 (sdC x))

/-- A `[4, 1024]` parameter spread over the batch. -/
def gb (p : FVec Ideal S4x1024 .f32) : FVec Ideal S256x4x1024 .f32 :=
  broadcastInDim S256x4x1024 ![0, 1, 2] bcast_S1x4x1024_S256x4x1024_0_1_2 (broadcastInDim S1x4x1024 ![1, 2] bcast_S4x1024_S1x4x1024_1_2 p)

/-- The host sum of a `[256, 4, 1024]` array from the zero pattern, spread to a column, over `1024.0`: at `(b, g, u)` the
    sum of row `(b, g)` divided by the pattern. -/
theorem sumCol_apply (y : FVec Ideal S256x4x1024 .f32) (b : Fin 256) (g : Fin 4) (u : Fin 1) :
    Host.divf (broadcastInDim S256x4x1 ![0, 1] bcast_S256x4_S256x4x1_0_1 (Host.reduceAdd y (constant (F := Ideal) S_ .f32 0x00000000#32) reducesTo_S256x4x1024_S256x4_d2 h_S_)) (broadcastInDim S256x4x1 ![] bcast_S_S256x4x1 (constant (F := Ideal) S_ .f32 0x44800000#32)) (ix3 b g u)
      = Ideal.div (∑ k : Fin 1024, y (ix3 b g k)) (Ideal.ofBits .f32 0x44800000#32) := by
  refine (hostDivf_apply _ _ _).trans (congrArg₂ Ideal.div ?_ ?_)
  · refine (bcast_ab_ab1_apply _ bcast_S256x4_S256x4x1_0_1 b g u).trans ?_
    refine (reduceAdd_last3_apply y _ reducesTo_S256x4x1024_S256x4_d2 h_S_ (by decide) b g).trans ?_
    show Ideal.ofBits .f32 0x00000000#32 + _ = _
    rw [Ideal.ofBits_zero_f32, zero_add]
  · exact broadcastInDim_scalar_apply bcast_S_S256x4x1 _ _

theorem meanC_apply (x : FVec Ideal S256x4x1024 .f32) (b : Fin 256) (g : Fin 4) (u : Fin 1) :
    meanC x (ix3 b g u) = mean (fun k => x (ix3 b g k)) :=
  sumCol_apply x b g u

theorem devC_apply (x : FVec Ideal S256x4x1024 .f32) (b : Fin 256) (g : Fin 4) (h : Fin 1024) :
    devC x (ix3 b g h) = x (ix3 b g h) - mean (fun k => x (ix3 b g k)) := by
  refine (subf_apply _ _ _).trans (congrArg (x (ix3 b g h) - ·) ?_)
  exact (bcast_ab1_abc_apply _ bcast_S256x4x1_S256x4x1024_0_1_2 b g h).trans (meanC_apply x b g 0)

theorem sdC_apply (x : FVec Ideal S256x4x1024 .f32) (b : Fin 256) (g : Fin 4) (u : Fin 1) :
    sdC x (ix3 b g u) = Ideal.sqrt (spread (fun k => x (ix3 b g k))) := by
  refine (hostSqrt_apply _ _).trans (congrArg Ideal.sqrt ?_)
  refine (addf_apply _ _ _).trans (congrArg₂ (· + ·) ?_ ?_)
  · refine (sumCol_apply _ b g u).trans (congrArg (Ideal.div · (Ideal.ofBits .f32 0x44800000#32)) ?_)
    refine Finset.sum_congr rfl fun k _ => ?_
    refine (mulf_apply _ _ _).trans ?_
    rw [devC_apply]
  · exact broadcastInDim_scalar_apply bcast_S_S256x4x1 _ _

/-- The normalised rows at `(b, g, h)`: the cell's `normMul` of row `(b, g)`. -/
theorem normD_apply (x : FVec Ideal S256x4x1024 .f32) (b : Fin 256) (g : Fin 4) (h : Fin 1024) :
    normD x (ix3 b g h) = normMul (fun k => x (ix3 b g k)) h := by
  rw [← normDiv_eq_normMul]
  refine (hostDivf_apply _ _ _).trans (congrArg₂ Ideal.div (devC_apply x b g h) ?_)
  exact (bcast_ab1_abc_apply _ bcast_S256x4x1_S256x4x1024_0_1_2 b g h).trans (sdC_apply x b g 0)

theorem gb_apply (p : FVec Ideal S4x1024 .f32) (b : Fin 256) (g : Fin 4) (h : Fin 1024) :
    gb p (ix3 b g h) = p (ix2 g h) :=
  (bcast_1bc_abc_apply _ bcast_S1x4x1024_S256x4x1024_0_1_2 b g h).trans (bcast_bc_1bc_apply p bcast_S4x1024_S1x4x1024_1_2 0 g h)

/-! ## The pre-activations -/

/-- The run's term for the pre-activations, stage by stage. -/
theorem res_v56_eq (V0 : Valuation τ sig (Elt Ideal)) :
    res_main_v56 (F := Ideal) V0
      = addf (addf (addf (mulf (normD (res_main_v1 V0)) (gb (V0 (Proc.devRef .tc main_arg6)))) (gb (V0 (Proc.devRef .tc main_arg7))))
          (addf (mulf (normD (res_main_v3 V0)) (gb (V0 (Proc.devRef .tc main_arg8)))) (gb (V0 (Proc.devRef .tc main_arg9)))))
          (gb (shapeCast S4x1024 (V0 (Proc.devRef .tc main_arg5)) shapeCasts_S4096_S4x1024)) := rfl

/-- The pre-activations at `(b, g, h)`. -/
theorem res_v56_apply (V0 : Valuation τ sig (Elt Ideal)) (b : Fin 256) (g : Fin 4) (h : Fin 1024) :
    res_main_v56 (F := Ideal) V0 (ix3 b g h) = pre (args V0) b g h := by
  have h1 : normD (res_main_v1 V0) (ix3 b g h) = normMul (gemm (args V0).inp (args V0).Wi b g) h :=
    (normD_apply _ b g h).trans (congrArg (fun f => normMul f h) (funext fun k => res_v1_apply V0 b g k))
  have h3 : normD (res_main_v3 V0) (ix3 b g h) = normMul (gemm (args V0).hx (args V0).Wh b g) h :=
    (normD_apply _ b g h).trans (congrArg (fun f => normMul f h) (funext fun k => res_v3_apply V0 b g k))
  rw [res_v56_eq]
  show (normD (res_main_v1 V0) (ix3 b g h) * gb (V0 (Proc.devRef .tc main_arg6)) (ix3 b g h) + gb (V0 (Proc.devRef .tc main_arg7)) (ix3 b g h))
      + (normD (res_main_v3 V0) (ix3 b g h) * gb (V0 (Proc.devRef .tc main_arg8)) (ix3 b g h) + gb (V0 (Proc.devRef .tc main_arg9)) (ix3 b g h))
      + gb (shapeCast S4x1024 (V0 (Proc.devRef .tc main_arg5)) shapeCasts_S4096_S4x1024) (ix3 b g h) = _
  rw [h1, h3, gb_apply, gb_apply, gb_apply, gb_apply, gb_apply,
    shapeCast_n_bc_apply _ shapeCasts_S4096_S4x1024 g h (wrow g h) rfl]
  rfl

end Cert.ReferenceIdeal.RefValue

end
-- ==== Proof.RefReadB.lean ====
/-
  The reference's two results read at an index.

  From the pre-activations `P : [256, 4, 1024]` the reference cuts the four gates' planes, applies the logistic function
  (spelt `1 / (1 + exp (-x))`) to gates 0, 1, 3 and the hyperbolic tangent to gate 2, and forms the new cell state
  `σ(P₁) · cx + σ(P₀) · tanh(P₂)`. It then normalises each row of the cell state (mean, deviations, mean of squares plus
  a small constant, square root, quotient), applies gain and offset, the hyperbolic tangent, and the output gate:
  `σ(P₃) · tanh(normalise(cy) · gain + offset)`. Each stage is named as a function of its operand and read at `(b, h)`;
  the results are the cell's `cy` and `hy`.
-/
import proofs.«107191_j38560216383688_2_alg».proof.Proof.RefReadA

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.StableHlo
open Idealize.ShloMosaic.ValueIdx Cert.HostRead Cert.Lstm

/-! ## Gates -/

/-- The logistic function in the reference's spelling. -/
def lgst (x : FVec Ideal S256x1024 .f32) : FVec Ideal S256x1024 .f32 :=
  Host.divf (broadcastInDim S256x1024 ![] bcast_S_S256x1024 (constant (F := Ideal) S_ .f32 0x3F800000#32)) (addf (broadcastInDim S256x1024 ![] bcast_S_S256x1024 (constant (F := Ideal) S_ .f32 0x3F800000#32)) (Host.exp (Host.negf x)))

theorem lgst_apply (x : FVec Ideal S256x1024 .f32) (j : S256x1024.Idx) : lgst x j = Ideal.logistic (x j) := by
  refine Eq.trans ?_ (logistic_spelt (x j))
  refine (hostDivf_apply _ _ _).trans (congrArg₂ Ideal.div ?_ ?_)
  · exact broadcastInDim_scalar_apply bcast_S_S256x1024 _ _
  · refine (addf_apply _ _ _).trans (congrArg₂ (· + ·) ?_ rfl)
    exact broadcastInDim_scalar_apply bcast_S_S256x1024 _ _

/-- The plane of gate `o`. -/
def gate (o : ℕ) (hs : S256x4x1024.Slices ![0, o, 0] S256x1x1024) (P : FVec Ideal S256x4x1024 .f32) : FVec Ideal S256x1024 .f32 :=
  shapeCast S256x1024 (extractStridedSlice S256x1x1024 ![0, o, 0] P hs) shapeCasts_S256x1x1024_S256x1024

theorem gate_apply (o : ℕ) (hs : S256x4x1024.Slices ![0, o, 0] S256x1x1024) (P : FVec Ideal S256x4x1024 .f32)
    (b : Fin 256) (h : Fin 1024) (g : Fin 4) (hg : g.val = o) : gate o hs P (ix2 b h) = P (ix3 b g h) :=
  (shapeCast_a1c_ac_apply _ shapeCasts_S256x1x1024_S256x1024 b h).trans (slice_mid_apply o P hs b 0 h g hg)

/-! ## The new cell state -/

/-- The run's term for the new cell state, stage by stage. -/
theorem res_v86_eq (V0 : Valuation τ sig (Elt Ideal)) :
    res_main_v86 (F := Ideal) V0
      = addf (mulf (lgst (gate 1 slices_S256x4x1024_S256x1x1024_0_1_0 (res_main_v56 V0))) (V0 (Proc.devRef .tc main_arg2)))
          (mulf (lgst (gate 0 slices_S256x4x1024_S256x1x1024_0_0_0 (res_main_v56 V0)))
            (Host.tanh (gate 2 slices_S256x4x1024_S256x1x1024_0_2_0 (res_main_v56 V0)))) := rfl

/-- The new cell state at `(b, h)`. -/
theorem res_v86_apply (V0 : Valuation τ sig (Elt Ideal)) (b : Fin 256) (h : Fin 1024) :
    res_main_v86 (F := Ideal) V0 (ix2 b h) = cy (args V0) b h := by
  rw [res_v86_eq]
  show lgst (gate 1 slices_S256x4x1024_S256x1x1024_0_1_0 (res_main_v56 V0)) (ix2 b h) * V0 (Proc.devRef .tc main_arg2) (ix2 b h)
      + lgst (gate 0 slices_S256x4x1024_S256x1x1024_0_0_0 (res_main_v56 V0)) (ix2 b h)
        * Ideal.tanh (gate 2 slices_S256x4x1024_S256x1x1024_0_2_0 (res_main_v56 V0) (ix2 b h)) = _
  rw [lgst_apply, lgst_apply, gate_apply 1 _ _ b h 1 rfl, gate_apply 0 _ _ b h 0 rfl, gate_apply 2 _ _ b h 2 rfl,
    res_v56_apply, res_v56_apply, res_v56_apply]
  rfl

theorem cy_eq (V0 : Valuation τ sig (Elt Ideal)) : res_main_v86 (F := Ideal) V0 = Cert.Lstm.cyArr (args V0) := by
  funext j
  obtain ⟨b, h, rfl⟩ : ∃ (b : Fin 256) (h : Fin 1024), j = ix2 b h := ⟨j 0, j 1, eq_ix2 j⟩
  exact res_v86_apply V0 b h

/-! ## A row's normalisation in the reference's spelling, rank 2 -/

/-- The column of row means. -/
def meanC2 (y : FVec Ideal S256x1024 .f32) : FVec Ideal S256x1 .f32 :=
  Host.divf (broadcastInDim S256x1 ![0] bcast_S256_S256x1_0 (Host.reduceAdd y (constant (F := Ideal) S_ .f32 0x00000000#32) reducesTo_S256x1024_S256_d1 h_S_)) (broadcastInDim S256x1 ![] bcast_S_S256x1 (constant (F := Ideal) S_ .f32 0x44800000#32))

/-- The deviations from the row means. -/
def devC2 (y : FVec Ideal S256x1024 .f32) : FVec Ideal S256x1024 .f32 :=
  subf y (broadcastInDim S256x1024 ![0, 1] bcast_S256x1_S256x1024_0_1 (meanC2 y))

/-- The column of square roots of the rows' spreads. -/
def sdC2 (y : FVec Ideal S256x1024 .f32) : FVec Ideal S256x1 .f32 :=
  Host.sqrt (addf (Host.divf (broadcastInDim S256x1 ![0] bcast_S256_S256x1_0 (Host.reduceAdd (mulf (devC2 y) (devC2 y)) (constant (F := Ideal) S_ .f32 0x00000000#32) reducesTo_S256x1024_S256_d1 h_S_)) (broadcastInDim S256x1 ![] bcast_S_S256x1 (constant (F := Ideal) S_ .f32 0x44800000#32))) (broadcastInDim S256x1 ![] bcast_S_S256x1 (constant (F := Ideal) S_ .f32 0x2EDBE6FF#32)))

/-- The normalised rows: deviations divided by the square root of the spread. -/
def normD2 (y : FVec Ideal S256x1024 .f32) : FVec Ideal S256x1024 .f32 :=
  Host.divf (devC2 y) (broadcastInDim S256x1024 ![0, 1] bcast_S256x1_S256x1024_0_1 (sdC2 y))

/-- A `[1024]` parameter spread over the batch. -/
def rb (p : FVec Ideal S1024 .f32) : FVec Ideal S256x1024 .f32 :=
  broadcastInDim S256x1024 ![0, 1] bcast_S1x1024_S256x1024_0_1 (broadcastInDim S1x1024 ![1] bcast_S1024_S1x1024_1 p)

/-- The host sum of a `[256, 1024]` array from the zero pattern, spread to a column, over `1024.0`: at `(b, u)` the sum of
    row `b` divided by the pattern. -/
theorem sumCol2_apply (y : FVec Ideal S256x1024 .f32) (b : Fin 256) (u : Fin 1) :
    Host.divf (broadcastInDim S256x1 ![0] bcast_S256_S256x1_0 (Host.reduceAdd y (constant (F := Ideal) S_ .f32 0x00000000#32) reducesTo_S256x1024_S256_d1 h_S_)) (broadcastInDim S256x1 ![] bcast_S_S256x1 (constant (F := Ideal) S_ .f32 0x44800000#32)) (ix2 b u)
      = Ideal.div (∑ k : Fin 1024, y (ix2 b k)) (Ideal.ofBits .f32 0x44800000#32) := by
  refine (hostDivf_apply _ _ _).trans (congrArg₂ Ideal.div ?_ ?_)
  · refine (bcast_a_a1_apply _ bcast_S256_S256x1_0 b u).trans ?_
    refine (reduceAdd_last2_apply y _ reducesTo_S256x1024_S256_d1 h_S_ (by decide) b).trans ?_
    show Ideal.ofBits .f32 0x00000000#32 + _ = _
    rw [Ideal.ofBits_zero_f32, zero_add]
  · exact broadcastInDim_scalar_apply bcast_S_S256x1 _ _

theorem meanC2_apply (y : FVec Ideal S256x1024 .f32) (b : Fin 256) (u : Fin 1) :
    meanC2 y (ix2 b u) = mean (fun k => y (ix2 b k)) :=
  sumCol2_apply y b u

theorem devC2_apply (y : FVec Ideal S256x1024 .f32) (b : Fin 256) (h : Fin 1024) :
    devC2 y (ix2 b h) = y (ix2 b h) - mean (fun k => y (ix2 b k)) := by
  refine (subf_apply _ _ _).trans (congrArg (y (ix2 b h) - ·) ?_)
  exact (bcast_a1_ac_apply _ bcast_S256x1_S256x1024_0_1 b h).trans (meanC2_apply y b 0)

theorem sdC2_apply (y : FVec Ideal S256x1024 .f32) (b : Fin 256) (u : Fin 1) :
    sdC2 y (ix2 b u) = Ideal.sqrt (spread (fun k => y (ix2 b k))) := by
  refine (hostSqrt_apply _ _).trans (congrArg Ideal.sqrt ?_)
  refine (addf_apply _ _ _).trans (congrArg₂ (· + ·) ?_ ?_)
  · refine (sumCol2_apply _ b u).trans (congrArg (Ideal.div · (Ideal.ofBits .f32 0x44800000#32)) ?_)
    refine Finset.sum_congr rfl fun k _ => ?_
    refine (mulf_apply _ _ _).trans ?_
    rw [devC2_apply]
  · exact broadcastInDim_scalar_apply bcast_S_S256x1 _ _

/-- The normalised rows at `(b, h)`: the cell's `normMul` of row `b`. -/
theorem normD2_apply (y : FVec Ideal S256x1024 .f32) (b : Fin 256) (h : Fin 1024) :
    normD2 y (ix2 b h) = normMul (fun k => y (ix2 b k)) h := by
  rw [← normDiv_eq_normMul]
  refine (hostDivf_apply _ _ _).trans (congrArg₂ Ideal.div (devC2_apply y b h) ?_)
  exact (bcast_a1_ac_apply _ bcast_S256x1_S256x1024_0_1 b h).trans (sdC2_apply y b 0)

theorem rb_apply (p : FVec Ideal S1024 .f32) (b : Fin 256) (h : Fin 1024) : rb p (ix2 b h) = p (ix1 h) :=
  (bcast_1c_ac_apply _ bcast_S1x1024_S256x1024_0_1 b h).trans (bcast_c_1c_apply p bcast_S1024_S1x1024_1 0 h)

/-! ## The new hidden state -/

/-- The run's term for the new hidden state, with the launch contents a variable. -/
def hyTerm (V0 : Valuation τ sig (Elt Ideal)) : (Proc.devRef .tc main_v112 : DevRef τ sig).ty.Contents (Elt Ideal) :=
  mulf (Host.divf (broadcastInDim S256x1024 ![] bcast_S_S256x1024 (constant (F := Ideal) S_ .f32 0x3F800000#32)) (addf (broadcastInDim S256x1024 ![] bcast_S_S256x1024 (constant (F := Ideal) S_ .f32 0x3F800000#32)) (Host.exp (Host.negf (shapeCast _ (extractStridedSlice S256x1x1024 ![0, 3, 0] (res_main_v56 V0) slices_S256x4x1024_S256x1x1024_0_3_0) shapeCasts_S256x1x1024_S256x1024))))) (Host.tanh (addf (mulf (Host.divf (subf (res_main_v86 V0) (broadcastInDim S256x1024 ![0, 1] bcast_S256x1_S256x1024_0_1 (res_main_v90 V0))) (broadcastInDim S256x1024 ![0, 1] bcast_S256x1_S256x1024_0_1 (Host.sqrt (addf (Host.divf (broadcastInDim S256x1 ![0] bcast_S256_S256x1_0 (Host.reduceAdd (mulf (res_main_v92 V0) (res_main_v92 V0)) (constant (F := Ideal) S_ .f32 0x00000000#32) reducesTo_S256x1024_S256_d1 h_S_)) (broadcastInDim S256x1 ![] bcast_S_S256x1 (constant (F := Ideal) S_ .f32 0x44800000#32))) (broadcastInDim S256x1 ![] bcast_S_S256x1 (constant (F := Ideal) S_ .f32 0x2EDBE6FF#32)))))) (broadcastInDim S256x1024 ![0, 1] bcast_S1x1024_S256x1024_0_1 (broadcastInDim S1x1024 ![1] bcast_S1024_S1x1024_1 (V0 (Proc.devRef .tc main_arg10))))) (broadcastInDim S256x1024 ![0, 1] bcast_S1x1024_S256x1024_0_1 (broadcastInDim S1x1024 ![1] bcast_S1024_S1x1024_1 (V0 (Proc.devRef .tc main_arg11))))))

/-- The same term, stage by stage. -/
theorem hyTerm_eq (V0 : Valuation τ sig (Elt Ideal)) :
    hyTerm V0 = mulf (lgst (gate 3 slices_S256x4x1024_S256x1x1024_0_3_0 (res_main_v56 V0)))
      (Host.tanh (addf (mulf (normD2 (res_main_v86 V0)) (rb (V0 (Proc.devRef .tc main_arg10)))) (rb (V0 (Proc.devRef .tc main_arg11))))) := rfl

/-- The new hidden state at `(b, h)`. -/
theorem hyTerm_apply (V0 : Valuation τ sig (Elt Ideal)) (b : Fin 256) (h : Fin 1024) :
    hyTerm V0 (ix2 b h) = hy (args V0) b h := by
  have hn : normD2 (res_main_v86 V0) (ix2 b h) = normMul (cy (args V0) b) h :=
    (normD2_apply _ b h).trans (congrArg (fun f => normMul f h) (funext fun k => res_v86_apply V0 b k))
  rw [hyTerm_eq]
  show lgst (gate 3 slices_S256x4x1024_S256x1x1024_0_3_0 (res_main_v56 V0)) (ix2 b h)
      * Ideal.tanh (normD2 (res_main_v86 V0) (ix2 b h) * rb (V0 (Proc.devRef .tc main_arg10)) (ix2 b h)
          + rb (V0 (Proc.devRef .tc main_arg11)) (ix2 b h)) = _
  rw [lgst_apply, gate_apply 3 _ _ b h 3 rfl, res_v56_apply, hn, rb_apply, rb_apply]
  rfl

theorem hy_eq (V0 : Valuation τ sig (Elt Ideal)) : hyTerm V0 = Cert.Lstm.hyArr (args V0) := by
  funext j
  obtain ⟨b, h, rfl⟩ : ∃ (b : Fin 256) (h : Fin 1024), j = ix2 b h := ⟨j 0, j 1, eq_ix2 j⟩
  exact hyTerm_apply V0 b h

end Cert.ReferenceIdeal.RefValue

end
-- ==== Proof.lean ====
/-
  A layer-normalised LSTM cell: the kernel (two pipelined regions — per-gate products, row normalisation and bias;
  then the gate non-linearities, the cell update, its normalisation and the output gate) against the plain
  array-level reference, on the extended reals.

  Both programs compute, entry by entry, the same function of the twelve arguments (LstmSpec: `pre`, `cy`, `hy`):
  * the kernel's two result arrays are read off its run block by block (KernelValue, over KernelPre / KernelPreArr
    for the first region and KernelCombine / KernelCombineArr for the second);
  * the reference's two results are read off its run stage by stage (RefReadA, RefReadB).
  The two spell a normalisation differently — a product with a reciprocal square root against a quotient by a square
  root — and agree because the quantity under the root is a mean of squares plus a positive constant, hence positive
  on every row of extended reals (LstmAlgebra); no finiteness of the inputs is used. The kernel's logistic function
  is by definition the reference's `1 / (1 + exp (-x))`. A product accumulated by the matrix unit, a lane sum and a
  change of float format are the host's contraction, sum and the identity at this instance.
-/
import proofs.«107191_j38560216383688_2_alg».proof.Defs
import proofs.«107191_j38560216383688_2_alg».proof.Proof.Gen.Kernel
import proofs.«107191_j38560216383688_2_alg».proof.Proof.Gen.Kernel.Skeleton
import proofs.«107191_j38560216383688_2_alg».proof.Proof.Gen.Kernel.Launch
import proofs.«107191_j38560216383688_2_alg».proof.Proof.Gen.Kernel.Points
import proofs.«107191_j38560216383688_2_alg».proof.Proof.Gen.Kernel.Frame
import proofs.«107191_j38560216383688_2_alg».proof.Proof.Gen.KernelIdeal
import proofs.«107191_j38560216383688_2_alg».proof.Proof.Gen.KernelIdeal.Skeleton
import proofs.«107191_j38560216383688_2_alg».proof.Proof.Gen.KernelIdeal.Launch
import proofs.«107191_j38560216383688_2_alg».proof.Proof.Gen.KernelIdeal.Points
import proofs.«107191_j38560216383688_2_alg».proof.Proof.Gen.KernelIdeal.Frame
import proofs.«107191_j38560216383688_2_alg».proof.Proof.Gen.ReferenceIdeal
import proofs.«107191_j38560216383688_2_alg».proof.Proof.Gen.ReferenceIdeal.Run
import proofs.«107191_j38560216383688_2_alg».proof.Proof.Gen.Pre_finite_inputs
import proofs.«107191_j38560216383688_2_alg».proof.Proof.KernelValue
import proofs.«107191_j38560216383688_2_alg».proof.Proof.RefReadB
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Idealize.ShloMosaic.Ideal) m ρ)

/-- The ideal pass rewrote nothing. -/
theorem preserves : Cert.preserves_Kernel_KernelIdeal := trivial

/-- From memories that agree on the arguments both programs end with the hidden state at `hy` and the cell state at
    `cy` of those arguments. -/
theorem algebraic : Cert.algebraic_KernelIdeal_ReferenceIdeal := by
  intro m ρ m' ρ' _ hagree
  refine ⟨fun c => Cert.Lstm.hyArr (Cert.KernelIdeal.Value.args m c), fun c => Cert.Lstm.cyArr (Cert.KernelIdeal.Value.args m c),
    Cert.KernelIdeal.Value.run m ρ, ?_⟩
  refine (θ_run Cert.ReferenceIdeal.defs _ _).mono (fun _ h c => ?_)
    (Cert.ReferenceIdeal.Value.run (F := Idealize.ShloMosaic.Ideal) m' ρ')
  have hargs : Cert.ReferenceIdeal.RefValue.args (StableHlo.launchContents m' c) = Cert.KernelIdeal.Value.args m c := by
    obtain ⟨h0, h1, h2, h3, h4, h5, h6, h7, h8, h9, h10, h11⟩ := hagree c
    show Cert.Lstm.Args.mk _ _ _ _ _ _ _ _ _ _ _ _ = Cert.Lstm.Args.mk _ _ _ _ _ _ _ _ _ _ _ _
    congr 1
  refine ⟨(h c).1.trans ?_, (h c).2.1.trans ?_, (h c).2.2⟩
  · exact (Cert.ReferenceIdeal.RefValue.hy_eq (StableHlo.launchContents m' c)).trans (by rw [hargs])
  · exact (Cert.ReferenceIdeal.RefValue.cy_eq (StableHlo.launchContents m' c)).trans (by rw [hargs])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
